-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_1)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_arg9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg9) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v51) = v5 c
          ∧ r.2.mem ((c.tc : Thread Cert.ReferenceIdeal.nD Cert.ReferenceIdeal.τ).loc Cert.ReferenceIdeal.main_v37) = v6 c
          ∧ r.2.mem ((c.tc : Thread Cert.ReferenceIdeal.nD Cert.ReferenceIdeal.τ).loc Cert.ReferenceIdeal.main_v42) = v7 c
          ∧ r.2.mem ((c.tc : Thread Cert.ReferenceIdeal.nD Cert.ReferenceIdeal.τ).loc Cert.ReferenceIdeal.main_arg9) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x1024 : Shape := ⟨2, ![64, 1024]⟩
abbrev S1024 : Shape := ⟨1, ![1024]⟩
abbrev S1088x50 : Shape := ⟨2, ![1088, 50]⟩
abbrev S50 : Shape := ⟨1, ![50]⟩
abbrev S16x64 : Shape := ⟨2, ![16, 64]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_
  bcast_S_S1088x50 : S_.BroadcastsInDim S1088x50 (![] : Fin 0 → Fin S1088x50.rank)
  reducesTo_S1088x50_S_d0_1 : S1088x50.ReducesTo [0, 1] S_
  bcast_S_S50 : S_.BroadcastsInDim S50 (![] : Fin 0 → Fin S50.rank)
  reducesTo_S50_S_d0 : S50.ReducesTo [0] S_
  bcast_S_S16x64 : S_.BroadcastsInDim S16x64 (![] : Fin 0 → Fin S16x64.rank)
  reducesTo_S16x64_S_d0_1 : S16x64.ReducesTo [0, 1] S_

variable [Facts]

def fn_part2 {F : FTy → Type} [FloatOps F] (main_arg7 : FVec F S1088x50 .f32) (main_arg8 : FVec F S50 .f32) (main_arg9 : FVec F S16x64 .f32) (main_v33 : IVec S_ 1) : IVec S_ 1 :=
  let main_v34 : FVec F S1088x50 .f32 := Host.absf main_arg7
  let main_cst_12 : FVec F S_ .f32 := constant S_ .f32 0x7F800000#32
  let main_v35 : FVec F S1088x50 .f32 := broadcastInDim S1088x50 ![] bcast_S_S1088x50 main_cst_12
  let main_v36 : IVec S1088x50 1 := cmpf .olt main_v34 main_v35
  let main_c_13 : IVec S_ 1 := constantI S_ 1 1#1
  let main_v37 : IVec S_ 1 := (fun x v => Host.reduce IntOp.andi x v reducesTo_S1088x50_S_d0_1 h_S_) main_v36 main_c_13
  let main_v38 : IVec S_ 1 := andi main_v33 main_v37
  let main_v39 : FVec F S50 .f32 := Host.absf main_arg8
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S16x64 .f32 := Host.absf main_arg9
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  main_v48

def fn_part1 {F : FTy → Type} [FloatOps F] (main_arg4 : FVec F S64 .f32) (main_arg5 : FVec F S64x1024 .f32) (main_arg6 : FVec F S1024 .f32) (main_arg7 : FVec F S1088x50 .f32) (main_arg8 : FVec F S50 .f32) (main_arg9 : FVec F S16x64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S1024x512 .f32) (main_arg2 : FVec F S512 .f32) (main_arg3 : FVec F S512x64 .f32) (main_arg4 : FVec F S64 .f32) (main_arg5 : FVec F S64x1024 .f32) (main_arg6 : FVec F S1024 .f32) (main_arg7 : FVec F S1088x50 .f32) (main_arg8 : FVec F S50 .f32) (main_arg9 : FVec F S16x64 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x1024 : Shape := ⟨2, ![64, 1024]⟩
abbrev S1024 : Shape := ⟨1, ![1024]⟩
abbrev S1088x50 : Shape := ⟨2, ![1088, 50]⟩
abbrev S50 : Shape := ⟨1, ![50]⟩
abbrev S16x64 : Shape := ⟨2, ![16, 64]⟩
abbrev S1x512 : Shape := ⟨2, ![1, 512]⟩
abbrev S1x64 : Shape := ⟨2, ![1, 64]⟩
abbrev S1x1024 : Shape := ⟨2, ![1, 1024]⟩
abbrev S64x50 : Shape := ⟨2, ![64, 50]⟩
abbrev S1024x50 : Shape := ⟨2, ![1024, 50]⟩
abbrev S1x50 : Shape := ⟨2, ![1, 50]⟩
abbrev S8192x64 : Shape := ⟨2, ![8192, 64]⟩
abbrev S8192x16 : Shape := ⟨2, ![8192, 16]⟩
abbrev S8192x50 : Shape := ⟨2, ![8192, 50]⟩
abbrev S8192x1 : Shape := ⟨2, ![8192, 1]⟩
abbrev S_ : Shape := ⟨0, ![]⟩
abbrev S8192 : Shape := ⟨1, ![8192]⟩
abbrev S1024x1024 : Shape := ⟨2, ![1024, 1024]⟩
abbrev S1024x64 : Shape := ⟨2, ![1024, 64]⟩
abbrev S1024x16 : Shape := ⟨2, ![1024, 16]⟩
abbrev S1024x1 : Shape := ⟨2, ![1024, 1]⟩
abbrev S16 : Shape := ⟨1, ![16]⟩
abbrev S1x16 : Shape := ⟨2, ![1, 16]⟩

abbrev nBuf : Space → Nat
  | .hbm => 26
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S64x1024, .f32⟩
  | .hbm, ⟨6, _⟩ => ⟨S1024, .f32⟩
  | .hbm, ⟨7, _⟩ => ⟨S1088x50, .f32⟩
  | .hbm, ⟨8, _⟩ => ⟨S50, .f32⟩
  | .hbm, ⟨9, _⟩ => ⟨S16x64, .f32⟩
  | .hbm, ⟨10, _⟩ => ⟨S1x512, .f32⟩
  | .hbm, ⟨11, _⟩ => ⟨S1x64, .f32⟩
  | .hbm, ⟨12, _⟩ => ⟨S1x1024, .f32⟩
  | .hbm, ⟨13, _⟩ => ⟨S64x50, .f32⟩
  | .hbm, ⟨14, _⟩ => ⟨S1024x50, .f32⟩
  | .hbm, ⟨15, _⟩ => ⟨S1x50, .f32⟩
  | .hbm, ⟨16, _⟩ => ⟨S8192x64, .f32⟩
  | .hbm, ⟨17, _⟩ => ⟨S8192x16, .f32⟩
  | .hbm, ⟨18, _⟩ => ⟨S8192x50, .f32⟩
  | .hbm, ⟨19, _⟩ => ⟨S8192x1024, .f32⟩
  | .hbm, ⟨20, _⟩ => ⟨S8192x1, .f32⟩
  | .hbm, ⟨21, _⟩ => ⟨S_, .f32⟩
  | .hbm, ⟨22, _⟩ => ⟨S8192x64, .f32⟩
  | .hbm, ⟨23, _⟩ => ⟨S_, .f32⟩
  | .hbm, ⟨24, _⟩ => ⟨S8192, .f32⟩
  | .hbm, ⟨25, _⟩ => ⟨S8192, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1x512, .f32⟩
  | .local _ .vmem, ⟨4, _⟩ => ⟨S512x64, .f32⟩
  | .local _ .vmem, ⟨5, _⟩ => ⟨S1x64, .f32⟩
  | .local _ .vmem, ⟨6, _⟩ => ⟨S64x1024, .f32⟩
  | .local _ .vmem, ⟨7, _⟩ => ⟨S1x1024, .f32⟩
  | .local _ .vmem, ⟨8, _⟩ => ⟨S64x50, .f32⟩
  | .local _ .vmem, ⟨9, _⟩ => ⟨S1024x50, .f32⟩
  | .local _ .vmem, ⟨10, _⟩ => ⟨S1x50, .f32⟩
  | .local _ .vmem, ⟨11, _⟩ => ⟨S16x64, .f32⟩
  | .local _ .vmem, ⟨12, _⟩ => ⟨S1024x64, .f32⟩
  | .local _ .vmem, ⟨13, _⟩ => ⟨S1024x64, .f32⟩
  | .local _ .vmem, ⟨14, _⟩ => ⟨S1024x16, .f32⟩
  | .local _ .vmem, ⟨15, _⟩ => ⟨S1024x16, .f32⟩
  | .local _ .vmem, ⟨16, _⟩ => ⟨S1024x50, .f32⟩
  | .local _ .vmem, ⟨17, _⟩ => ⟨S1024x50, .f32⟩
  | .local _ .vmem, ⟨18, _⟩ => ⟨S1024x1024, .f32⟩
  | .local _ .vmem, ⟨19, _⟩ => ⟨S1024x1024, .f32⟩
  | .local _ .vmem, ⟨20, _⟩ => ⟨S1024x1, .f32⟩
  | .local _ .vmem, ⟨21, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_v0_0 : Ref sig .tc := ⟨.hbm, 16, rfl⟩
abbrev main_v0_6 : Ref sig .tc := ⟨.hbm, 17, rfl⟩
abbrev main_v0_7 : Ref sig .tc := ⟨.hbm, 18, rfl⟩
abbrev main_v0_4 : Ref sig .tc := ⟨.hbm, 19, rfl⟩
abbrev main_call0_v6_4 : Ref sig .tc := ⟨.hbm, 20, rfl⟩
abbrev main_call0_cst : Ref sig .tc := ⟨.hbm, 21, rfl⟩
abbrev main_v0_1 : Ref sig .tc := ⟨.hbm, 22, rfl⟩
abbrev main_call0_cst_0 : Ref sig .tc := ⟨.hbm, 23, rfl⟩
abbrev main_v0_3 : Ref sig .tc := ⟨.hbm, 24, rfl⟩
abbrev main_v0_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x50 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S512_S1x512_1 : S512.BroadcastsInDim S1x512 (![1] : Fin 1 → Fin S1x512.rank)
  bcast_S64_S1x64_1 : S64.BroadcastsInDim S1x64 (![1] : Fin 1 → Fin S1x64.rank)
  bcast_S1024_S1x1024_1 : S1024.BroadcastsInDim S1x1024 (![1] : Fin 1 → Fin S1x1024.rank)
  slices_S1088x50_S64x50_0_0 : S1088x50.Slices ![0, 0] S64x50
  slices_S1088x50_S1024x50_64_0 : S1088x50.Slices ![64, 0] S1024x50
  bcast_S50_S1x50_1 : S50.BroadcastsInDim S1x50 (![1] : Fin 1 → Fin S1x50.rank)
  bcast_S_S8192x64 : S_.BroadcastsInDim S8192x64 (![] : Fin 0 → Fin S8192x64.rank)
  bcast_S_S8192 : S_.BroadcastsInDim S8192 (![] : Fin 0 → Fin S8192.rank)
  shapeCasts_S8192x1_S8192 : S8192x1.ShapeCasts S8192
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  inb_S16x64_S16x64_0_0 : ∀ a, (![0, 0] : Fin 2 → Nat) a + S16x64.size a ≤ S16x64.size a
  h_S16x64 : 0 < S16x64.numel
  reduces_S1024x64_S1024 : S1024x64.Reduces [1] S1024
  shapeCasts_S1024_S1024x1 : S1024.ShapeCasts S1024x1
  reduces_S16x64_S16 : S16x64.Reduces [1] S16
  shapeCasts_S16_S1x16 : S16.ShapeCasts S1x16
  broadcasts_S1024x1_S1024x16 : S1024x1.Broadcasts S1024x16
  broadcasts_S1x16_S1024x16 : S1x16.Broadcasts S1024x16
  reduces_S1024x16_S1024 : S1024x16.Reduces [1] S1024
  inb_S1024x16_S1024x16_0_0 : ∀ a, (![0, 0] : Fin 2 → Nat) a + S1024x16.size a ≤ S1024x16.size a
  h_S1024x16 : 0 < S1024x16.numel
  inb_S64x50_S64x50_0_0 : ∀ a, (![0, 0] : Fin 2 → Nat) a + S64x50.size a ≤ S64x50.size a
  h_S64x50 : 0 < S64x50.numel
  shapeCasts_S64x50_S64x50 : S64x50.ShapeCasts S64x50
  inb_S1024x50_S1024x50_0_0 : ∀ a, (![0, 0] : Fin 2 → Nat) a + S1024x50.size a ≤ S1024x50.size a
  h_S1024x50 : 0 < S1024x50.numel
  shapeCasts_S1024x50_S1024x50 : S1024x50.ShapeCasts S1024x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S1024x50 : S1x50.Broadcasts S1024x50
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  dot_S1024x1024_S1024x512_S1024x512_1_0_0_1_n_n_wf : DotDims.WF S1024x1024 S1024x512 S1024x512 [1] [0] [0] [1] [] []
  dot_S1024x512_S512x64_S1024x64_1_0_0_1_n_n_wf : DotDims.WF S1024x512 S512x64 S1024x64 [1] [0] [0] [1] [] []
  dot_S1024x64_S16x64_S1024x16_1_1_0_0_n_n_wf : DotDims.WF S1024x64 S16x64 S1024x16 [1] [1] [0] [0] [] []
  dot_S1024x64_S64x50_S1024x50_1_0_0_1_n_n_wf : DotDims.WF S1024x64 S64x50 S1024x50 [1] [0] [0] [1] [] []
  dot_S1024x1024_S1024x50_S1024x50_1_0_0_1_n_n_wf : DotDims.WF S1024x1024 S1024x50 S1024x50 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .f32 = 32 ∨ (Rect.block (s := S64x1024) S64x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x50.size a ≤ S64x50.size a
  hwx0_7 : ∀ i : grid0.Coords, EltTy.bits .f32 = 32 ∨ (Rect.block (s := S64x50) S64x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x50.size a ≤ S1024x50.size a
  hwx0_8 : ∀ i : grid0.Coords, EltTy.bits .f32 = 32 ∨ (Rect.block (s := S1024x50) S1024x50.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x50.size a ≤ S1x50.size a
  hwx0_9 : ∀ i : grid0.Coords, EltTy.bits .f32 = 32 ∨ (Rect.block (s := S1x50) S1x50.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x64.size a ≤ S16x64.size a
  hwx0_10 : ∀ i : grid0.Coords, EltTy.bits .f32 = 32 ∨ (Rect.block (s := S16x64) S16x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S8192x64.size a
  hwx0_11 : ∀ i : grid0.Coords, EltTy.bits .f32 = 32 ∨ (Rect.block (s := S8192x64) S1024x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x16.size a ≤ S8192x16.size a
  hwx0_12 : ∀ i : grid0.Coords, EltTy.bits .f32 = 32 ∨ (Rect.block (s := S8192x16) S1024x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x50.size a ≤ S8192x50.size a
  hwx0_13 : ∀ i : grid0.Coords, EltTy.bits .f32 = 32 ∨ (Rect.block (s := S8192x50) S1024x50.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1024.size a ≤ S8192x1024.size a
  hwx0_14 : ∀ i : grid0.Coords, EltTy.bits .f32 = 32 ∨ (Rect.block (s := S8192x1024) S1024x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x1.size a ≤ S8192x1.size a
  hwx0_15 : ∀ i : grid0.Coords, EltTy.bits .f32 = 32 ∨ (Rect.block (s := S8192x1) S1024x1.size (cc0_transform_15 i) (hinb0_15 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S16x64_S1024x16_1_1_0_0_n_n : DotDims S1024x64 S16x64 S1024x16 where
  lhsContracting := [1]
  rhsContracting := [1]
  lhsNonContracting := [0]
  rhsNonContracting := [0]
  lhsBatch := []
  rhsBatch := []
  wf := dot_S1024x64_S16x64_S1024x16_1_1_0_0_n_n_wf
def dot_S1024x64_S64x50_S1024x50_1_0_0_1_n_n : DotDims S1024x64 S64x50 S1024x50 where
  lhsContracting := [1]
  rhsContracting := [0]
  lhsNonContracting := [0]
  rhsNonContracting := [1]
  lhsBatch := []
  rhsBatch := []
  wf := dot_S1024x64_S64x50_S1024x50_1_0_0_1_n_n_wf
def dot_S1024x1024_S1024x50_S1024x50_1_0_0_1_n_n : DotDims S1024x1024 S1024x50 S1024x50 where
  lhsContracting := [1]
  rhsContracting := [0]
  lhsNonContracting := [0]
  rhsNonContracting := [1]
  lhsBatch := []
  rhsBatch := []
  wf := dot_S1024x1024_S1024x50_S1024x50_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S64x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1024x50.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v5) S1x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S16x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S1024x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_6) S1024x16.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_7) S1024x50.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_4) S1024x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_call0_v6_4) S1024x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x512 : Shape := ⟨2, ![1024, 512]⟩
abbrev S512 : Shape := ⟨1, ![512]⟩
abbrev S512x64 : Shape := ⟨2, ![512, 64]⟩
abbrev S64 : Shape := ⟨1, ![64]⟩
abbrev S64x1024 : Shape := ⟨2, ![64, 1024]⟩
abbrev S1024 : Shape := ⟨1, ![1024]⟩
abbrev S1088x50 : Shape := ⟨2, ![1088, 50]⟩
abbrev S50 : Shape := ⟨1, ![50]⟩
abbrev S16x64 : Shape := ⟨2, ![16, 64]⟩
abbrev S8192x512 : Shape := ⟨2, ![8192, 512]⟩
abbrev S1x512 : Shape := ⟨2, ![1, 512]⟩
abbrev S_ : Shape := ⟨0, ![]⟩
abbrev S8192x64 : Shape := ⟨2, ![8192, 64]⟩
abbrev S1x64 : Shape := ⟨2, ![1, 64]⟩
abbrev S8192x1x64 : Shape := ⟨3, ![8192, 1, 64]⟩
abbrev S1x16x64 : Shape := ⟨3, ![1, 16, 64]⟩
abbrev S8192x16x64 : Shape := ⟨3, ![8192, 16, 64]⟩
abbrev S8192x16 : Shape := ⟨2, ![8192, 16]⟩
abbrev S8192 : Shape := ⟨1, ![8192]⟩
abbrev S8192x1 : Shape := ⟨2, ![8192, 1]⟩
abbrev S8192x1088 : Shape := ⟨2, ![8192, 1088]⟩
abbrev S8192x50 : Shape := ⟨2, ![8192, 50]⟩
abbrev S1x50 : Shape := ⟨2, ![1, 50]⟩
abbrev S1x1024 : Shape := ⟨2, ![1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S512, .f32⟩
  | .hbm, ⟨3, _⟩ => ⟨S512x64, .f32⟩
  | .hbm, ⟨4, _⟩ => ⟨S64, .f32⟩
  | .hbm, ⟨5, _⟩ => ⟨S64x1024, .f32⟩
  | .hbm, ⟨6, _⟩ => ⟨S1024, .f32⟩
  | .hbm, ⟨7, _⟩ => ⟨S1088x50, .f32⟩
  | .hbm, ⟨8, _⟩ => ⟨S50, .f32⟩
  | .hbm, ⟨9, _⟩ => ⟨S16x64, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192x512, .f32⟩
  | .hbm, ⟨16, _⟩ => ⟨S8192x512, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S_, .f32⟩
  | .hbm, ⟨22, _⟩ => ⟨S8192x64, .f32⟩
  | .hbm, ⟨23, _⟩ => ⟨S_, .f32⟩
  | .hbm, ⟨24, _⟩ => ⟨S8192x64, .f32⟩
  | .hbm, ⟨25, _⟩ => ⟨S8192x1x64, .f32⟩
  | .hbm, ⟨26, _⟩ => ⟨S1x16x64, .f32⟩
  | .hbm, ⟨27, _⟩ => ⟨S8192x16x64, .f32⟩
  | .hbm, ⟨28, _⟩ => ⟨S8192x16x64, .f32⟩
  | .hbm, ⟨29, _⟩ => ⟨S8192x16x64, .f32⟩
  | .hbm, ⟨30, _⟩ => ⟨S8192x16x64, .f32⟩
  | .hbm, ⟨31, _⟩ => ⟨S_, .f32⟩
  | .hbm, ⟨32, _⟩ => ⟨S8192x16, .f32⟩
  | .hbm, ⟨33, _⟩ => ⟨S_, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S_, .f32⟩
  | .hbm, ⟨38, _⟩ => ⟨S8192x16, .f32⟩
  | .hbm, ⟨39, _⟩ => ⟨S8192x16, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x16, .f32⟩
  | .hbm, ⟨44, _⟩ => ⟨S8192x16, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x16, .f32⟩
  | .hbm, ⟨58, _⟩ => ⟨S8192x16, .f32⟩
  | .hbm, ⟨59, _⟩ => ⟨S8192x1088, .f32⟩
  | .hbm, ⟨60, _⟩ => ⟨S8192x50, .f32⟩
  | .hbm, ⟨61, _⟩ => ⟨S1x50, .f32⟩
  | .hbm, ⟨62, _⟩ => ⟨S8192x50, .f32⟩
  | .hbm, ⟨63, _⟩ => ⟨S8192x50, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S8192x64_S8192x1x64_0_2 : S8192x64.BroadcastsInDim S8192x1x64 (![0, 2] : Fin 2 → Fin S8192x1x64.rank)
  bcast_S16x64_S1x16x64_1_2 : S16x64.BroadcastsInDim S1x16x64 (![1, 2] : Fin 2 → Fin S1x16x64.rank)
  bcast_S8192x1x64_S8192x16x64_0_1_2 : S8192x1x64.BroadcastsInDim S8192x16x64 (![0, 1, 2] : Fin 3 → Fin S8192x16x64.rank)
  bcast_S1x16x64_S8192x16x64_0_1_2 : S1x16x64.BroadcastsInDim S8192x16x64 (![0, 1, 2] : Fin 3 → Fin S8192x16x64.rank)
  reducesTo_S8192x16x64_S8192x16_d2 : S8192x16x64.ReducesTo [2] S8192x16
  h_S_ : 0 < S_.numel
  bcast_S_S8192x16 : S_.BroadcastsInDim S8192x16 (![] : Fin 0 → Fin S8192x16.rank)
  reducesTo_S8192x16_S8192_d1 : S8192x16.ReducesTo [1] S8192
  bcast_S8192_S8192x1_0 : S8192.BroadcastsInDim S8192x1 (![0] : Fin 1 → Fin S8192x1.rank)
  bcast_S8192x1_S8192x16_0_1 : S8192x1.BroadcastsInDim S8192x16 (![0, 1] : Fin 2 → Fin S8192x16.rank)
  bcast_S_S8192 : S_.BroadcastsInDim S8192 (![] : Fin 0 → Fin S8192.rank)
  concatenates_S8192x64_S8192x1024_S8192x1088_d1 : Shape.Concatenates [S8192x64, S8192x1024] S8192x1088 1
  bcast_S50_S1x50_1 : S50.BroadcastsInDim S1x50 (![1] : Fin 1 → Fin S1x50.rank)
  bcast_S1x50_S8192x50_0_1 : S1x50.BroadcastsInDim S8192x50 (![0, 1] : Fin 2 → Fin S8192x50.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  dot_S8192x1024_S1024x512_S8192x512_1_0_0_1_n_n_wf : DotDims.WF S8192x1024 S1024x512 S8192x512 [1] [0] [0] [1] [] []
  dot_S8192x512_S512x64_S8192x64_1_0_0_1_n_n_wf : DotDims.WF S8192x512 S512x64 S8192x64 [1] [0] [0] [1] [] []
  dot_S8192x1088_S1088x50_S8192x50_1_0_0_1_n_n_wf : DotDims.WF S8192x1088 S1088x50 S8192x50 [1] [0] [0] [1] [] []
  dot_S8192x64_S64x1024_S8192x1024_1_0_0_1_n_n_wf : DotDims.WF S8192x64 S64x1024 S8192x1024 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x1088_S1088x50_S8192x50_1_0_0_1_n_n : DotDims S8192x1088 S1088x50 S8192x50 where
  lhsContracting := [1]
  rhsContracting := [0]
  lhsNonContracting := [0]
  rhsNonContracting := [1]
  lhsBatch := []
  rhsBatch := []
  wf := dot_S8192x1088_S1088x50_S8192x50_1_0_0_1_n_n_wf
def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf

class Facts : Prop extends Facts₀ where

variable [Facts]
-- ==== Proof.KBlocks.lean ====
/-
  From blocks to arrays. The grid has eight points; point t works on rows 1024·t … 1024·t + 1023 of the input and
  writes the same rows of each of the five results. Every other operand is one block, the whole array, at every
  point. So each result array ends holding, row by row, the row-wise function of Spec.lean of the same row of the
  input.
-/
import proofs.«152418_g16879221473979_cont_7to1_943_28_alg».proof.Proof.Gen.KernelIdeal.Frame
import Idealize.ShloMosaic.Lib.Pipeline.Value
import Idealize.ShloMosaic.PureOps.Ideal
import Idealize.ShloMosaic.PureOps.Ideal.Laws
import Idealize.ShloMosaic.Lib.ValueIdx
import Idealize.ShloMosaic.Lib.Tactic

set_option maxRecDepth 16384

noncomputable section

namespace Cert.KBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- Window 0's block index at a point: the point's number along the rows. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- Window 1's block index at a point: always the origin. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Window 2's block index at a point: always the origin. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- Window 3's block index at a point: always the origin. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4's block index at a point: always the origin. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5's block index at a point: always the origin. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6's block index at a point: always the origin. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7's block index at a point: always the origin. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8's block index at a point: always the origin. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9's block index at a point: always the origin. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10's block index at a point: always the origin. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- Window 11's block index at a point: the point's number along the rows. -/
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
/-- Window 12's block index at a point: the point's number along the rows. -/
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
/-- Window 13's block index at a point: the point's number along the rows. -/
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
/-- Window 14's block index at a point: the point's number along the rows. -/
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
/-- Window 15's block index at a point: the point's number along the rows. -/
theorem idx15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

/-! ## The input blocks read off their arrays -/

/-- Row p of the input block at point t is row 1024·t + p of the input. -/
theorem xblk_apply (c : Dev nD) (t : Fin cfg0.N) (p : Fin 1024) (i : Fin 1024) (r : Fin 8192) (hr : r.val = t.val * 1024 + p.val) :
    (iblk m c 0 t : Vec Ideal S1024x1024 .f32) (ix2 p i) = (m ((c : Thread nD τ).loc main_arg0) : S8192x1024.Idx → EReal) (ix2 r i) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * i.val = i.val; rw [e1]; omega

/-- Window 1's block is its whole array at every point. -/
theorem wblk1 (c : Dev nD) (t : Fin cfg0.N) : (iblk m c 1 t : Vec Ideal S1024x512 .f32) = (V m c main_arg1 : S1024x512.Idx → EReal) := by
  obtain ⟨e0, e1⟩ := idx1 t
  funext y
  unfold iblk
  rw [View.read_apply]
  show V m c main_arg1 _ = V m c main_arg1 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 512 + 1 * (y 1).val = (y 1).val; rw [e1]; omega

/-- Window 2's block is its whole array at every point. -/
theorem wblk2 (c : Dev nD) (t : Fin cfg0.N) : (iblk m c 2 t : Vec Ideal S1x512 .f32) = (V m c main_call0_v0 : S1x512.Idx → EReal) := by
  obtain ⟨e0, e1⟩ := idx2 t
  funext y
  unfold iblk
  rw [View.read_apply]
  show V m c main_call0_v0 _ = V m c main_call0_v0 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

/-- Window 3's block is its whole array at every point. -/
theorem wblk3 (c : Dev nD) (t : Fin cfg0.N) : (iblk m c 3 t : Vec Ideal S512x64 .f32) = (V m c main_arg3 : S512x64.Idx → EReal) := by
  obtain ⟨e0, e1⟩ := idx3 t
  funext y
  unfold iblk
  rw [View.read_apply]
  show V m c main_arg3 _ = V m c main_arg3 y
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 64 + 1 * (y 1).val = (y 1).val; rw [e1]; omega

/-- Window 4's block is its whole array at every point. -/
theorem wblk4 (c : Dev nD) (t : Fin cfg0.N) : (iblk m c 4 t : Vec Ideal S1x64 .f32) = (V m c main_call0_v1 : S1x64.Idx → EReal) := by
  obtain ⟨e0, e1⟩ := idx4 t
  funext y
  unfold iblk
  rw [View.read_apply]
  show V m c main_call0_v1 _ = V m c main_call0_v1 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Window 5's block is its whole array at every point. -/
theorem wblk5 (c : Dev nD) (t : Fin cfg0.N) : (iblk m c 5 t : Vec Ideal S64x1024 .f32) = (V m c main_arg5 : S64x1024.Idx → EReal) := by
  obtain ⟨e0, e1⟩ := idx5 t
  funext y
  unfold iblk
  rw [View.read_apply]
  show V m c main_arg5 _ = V m c main_arg5 y
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 1024 + 1 * (y 1).val = (y 1).val; rw [e1]; omega

/-- Window 6's block is its whole array at every point. -/
theorem wblk6 (c : Dev nD) (t : Fin cfg0.N) : (iblk m c 6 t : Vec Ideal S1x1024 .f32) = (V m c main_call0_v2 : S1x1024.Idx → EReal) := by
  obtain ⟨e0, e1⟩ := idx6 t
  funext y
  unfold iblk
  rw [View.read_apply]
  show V m c main_call0_v2 _ = V m c main_call0_v2 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

/-- Window 7's block is its whole array at every point. -/
theorem wblk7 (c : Dev nD) (t : Fin cfg0.N) : (iblk m c 7 t : Vec Ideal S64x50 .f32) = (V m c main_call0_v3 : S64x50.Idx → EReal) := by
  obtain ⟨e0, e1⟩ := idx7 t
  funext y
  unfold iblk
  rw [View.read_apply]
  show V m c main_call0_v3 _ = V m c main_call0_v3 y
  congr 1
  funext a
  apply Fin.ext
  match a with
  | ⟨0, _⟩ => show win0_7.index t (0 : Fin 2) * 64 + 1 * (y 0).val = (y 0).val; rw [e0]; omega
  | ⟨1, _⟩ => show win0_7.index t (1 : Fin 2) * 50 + 1 * (y 1).val = (y 1).val; rw [e1]; omega

/-- Window 8's block is its whole array at every point. -/
theorem wblk8 (c : Dev nD) (t : Fin cfg0.N) : (iblk m c 8 t : Vec Ideal S1024x50 .f32) = (V m c main_call0_v4 : S1024x50.Idx → EReal) := by
  obtain ⟨e0, e1⟩ := idx8 t
  funext y
  unfold iblk
  rw [View.read_apply]
  show V m c main_call0_v4 _ = V m c main_call0_v4 y
  congr 1
  funext a
  apply Fin.ext
  match a with
  | ⟨0, _⟩ => show win0_8.index t (0 : Fin 2) * 1024 + 1 * (y 0).val = (y 0).val; rw [e0]; omega
  | ⟨1, _⟩ => show win0_8.index t (1 : Fin 2) * 50 + 1 * (y 1).val = (y 1).val; rw [e1]; omega

/-- Window 9's block is its whole array at every point. -/
theorem wblk9 (c : Dev nD) (t : Fin cfg0.N) : (iblk m c 9 t : Vec Ideal S1x50 .f32) = (V m c main_call0_v5 : S1x50.Idx → EReal) := by
  obtain ⟨e0, e1⟩ := idx9 t
  funext y
  unfold iblk
  rw [View.read_apply]
  show V m c main_call0_v5 _ = V m c main_call0_v5 y
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 50 + 1 * (y 1).val = (y 1).val; rw [e1]; omega

/-- Window 10's block is its whole array at every point. -/
theorem wblk10 (c : Dev nD) (t : Fin cfg0.N) : (iblk m c 10 t : Vec Ideal S16x64 .f32) = (V m c main_arg9 : S16x64.Idx → EReal) := by
  obtain ⟨e0, e1⟩ := idx10 t
  funext y
  unfold iblk
  rw [View.read_apply]
  show V m c main_arg9 _ = V m c main_arg9 y
  congr 1
  funext a
  apply Fin.ext
  match a with
  | ⟨0, _⟩ => show win0_10.index t (0 : Fin 2) * 16 + 1 * (y 0).val = (y 0).val; rw [e0]; omega
  | ⟨1, _⟩ => show win0_10.index t (1 : Fin 2) * 64 + 1 * (y 1).val = (y 1).val; rw [e1]; omega

/-! ## The arrays the host lines before the region wrote -/

/-- A vector of `b` entries made a one-row matrix reads, at (0, c), its entry c. -/
theorem inDim_b_1b_apply {α : Type} {b : Nat} (v : (⟨1, ![b]⟩ : Shape).Idx → α)
    (h : (⟨1, ![b]⟩ : Shape).BroadcastsInDim ⟨2, ![1, b]⟩ ![1]) (c : Fin b) :
    broadcastInDim ⟨2, ![1, b]⟩ ![1] h v (ix2 (0 : Fin 1) c) = v (ix1 c) := by
  refine broadcastInDim_apply ![1] h v (ix2 (0 : Fin 1) c) (ix1 c) fun ax => ?_
  match ax with
  | ⟨0, _⟩ =>
    show c.val = if b = 1 then 0 else c.val
    split
    · have := c.isLt; omega
    · rfl

/-- The first bias as a one-row matrix. -/
theorem V_b1 (c : Dev nD) : (V m c main_call0_v0 : S1x512.Idx → EReal)
    = broadcastInDim S1x512 ![1] bcast_S512_S1x512_1 (m ((c : Thread nD τ).loc main_arg2) : S512.Idx → EReal) := by
  show StableHlo.after hostOps0 (fun b => m (c, b)) (Proc.devRef .tc main_call0_v0) = _
  after_results
  rfl

/-- The second bias as a one-row matrix. -/
theorem V_b2 (c : Dev nD) : (V m c main_call0_v1 : S1x64.Idx → EReal)
    = broadcastInDim S1x64 ![1] bcast_S64_S1x64_1 (m ((c : Thread nD τ).loc main_arg4) : S64.Idx → EReal) := by
  show StableHlo.after hostOps0 (fun b => m (c, b)) (Proc.devRef .tc main_call0_v1) = _
  after_results
  rfl

/-- The decoder's bias as a one-row matrix. -/
theorem V_db (c : Dev nD) : (V m c main_call0_v2 : S1x1024.Idx → EReal)
    = broadcastInDim S1x1024 ![1] bcast_S1024_S1x1024_1 (m ((c : Thread nD τ).loc main_arg6) : S1024.Idx → EReal) := by
  show StableHlo.after hostOps0 (fun b => m (c, b)) (Proc.devRef .tc main_call0_v2) = _
  after_results
  rfl

/-- The first 64 rows of the survival matrix. -/
theorem V_swz (c : Dev nD) : (V m c main_call0_v3 : S64x50.Idx → EReal)
    = extractStridedSlice S64x50 ![0, 0] (m ((c : Thread nD τ).loc main_arg7) : S1088x50.Idx → EReal) slices_S1088x50_S64x50_0_0 := by
  show StableHlo.after hostOps0 (fun b => m (c, b)) (Proc.devRef .tc main_call0_v3) = _
  after_results
  rfl

/-- Its last 1024 rows. -/
theorem V_swx (c : Dev nD) : (V m c main_call0_v4 : S1024x50.Idx → EReal)
    = extractStridedSlice S1024x50 ![64, 0] (m ((c : Thread nD τ).loc main_arg7) : S1088x50.Idx → EReal) slices_S1088x50_S1024x50_64_0 := by
  show StableHlo.after hostOps0 (fun b => m (c, b)) (Proc.devRef .tc main_call0_v4) = _
  after_results
  rfl

/-- The survival bias as a one-row matrix. -/
theorem V_sb (c : Dev nD) : (V m c main_call0_v5 : S1x50.Idx → EReal)
    = broadcastInDim S1x50 ![1] bcast_S50_S1x50_1 (m ((c : Thread nD τ).loc main_arg8) : S50.Idx → EReal) := by
  show StableHlo.after hostOps0 (fun b => m (c, b)) (Proc.devRef .tc main_call0_v5) = _
  after_results
  rfl

end Cert.KBlocks

end
-- ==== Proof.Spec.lean ====
/-
  The mathematics of the fused autoencoder-with-clustering forward pass, one ROW of the batch at a time, on the
  extended reals.

  For a row `A` (1024 numbers) of the input: the hidden layer `h = max (A·W1 + b1) 0` (512 numbers), the code
  `z = h·W2 + b2` (64 numbers), the reconstruction `x̂ = z·Wd + bd` (1024 numbers), the mean squared reconstruction
  error, the survival logits (the row `[z, A]` of 1088 numbers against one 1088 × 50 matrix, or the two partial
  products against its first 64 and its last 1024 rows), and the Student-t soft assignment of `z` to 16 centres.

  Two of these come in two spellings. The squared distance to a centre is `∑ (z - c)²`, or the expanded
  `max (∑ z² - 2 ∑ z c + ∑ c²) 0`. The mean is a division by 1024, or a product with 2⁻¹⁰. The soft assignment is
  a softmax of logits from which the row maximum has been taken, or the same with the (zero) maximum of the shifted
  logits taken once more. Float literals are kept as the words both programs print.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The float words the two programs print, as the extended reals they denote. -/
abbrev cZero : EReal := Ideal.ofBits .f32 0x00000000#32
abbrev cOne : EReal := Ideal.ofBits .f32 0x3F800000#32
abbrev cNegOne : EReal := Ideal.ofBits .f32 0xBF800000#32
abbrev cTwo : EReal := Ideal.ofBits .f32 0x40000000#32
abbrev cNegInf : EReal := Ideal.ofBits .f32 0xFF800000#32
abbrev cInv1024 : EReal := Ideal.ofBits .f32 0x3A800000#32
abbrev c1024 : EReal := Ideal.ofBits .f32 0x44800000#32

/-- One hidden unit of a row: the rectified affine image of the row. -/
def hidRow (A : Fin 1024 → EReal) (w1 : (⟨2, ![1024, 512]⟩ : Shape).Idx → EReal) (b1 : (⟨1, ![512]⟩ : Shape).Idx → EReal)
    (k : Fin 512) : EReal :=
  max ((∑ i : Fin 1024, A i * w1 (ix2 i k)) + b1 (ix1 k)) cZero

/-- One entry of a row's code. -/
def zRow (A : Fin 1024 → EReal) (w1 : (⟨2, ![1024, 512]⟩ : Shape).Idx → EReal) (b1 : (⟨1, ![512]⟩ : Shape).Idx → EReal)
    (w2 : (⟨2, ![512, 64]⟩ : Shape).Idx → EReal) (b2 : (⟨1, ![64]⟩ : Shape).Idx → EReal) (l : Fin 64) : EReal :=
  (∑ k : Fin 512, hidRow A w1 b1 k * w2 (ix2 k l)) + b2 (ix1 l)

/-- One entry of a row's reconstruction, from the row's code `Z`. -/
def xhatRow (Z : Fin 64 → EReal) (dw : (⟨2, ![64, 1024]⟩ : Shape).Idx → EReal) (db : (⟨1, ![1024]⟩ : Shape).Idx → EReal)
    (j : Fin 1024) : EReal :=
  (∑ l : Fin 64, Z l * dw (ix2 l j)) + db (ix1 j)

/-- The mean squared error of a reconstruction `Xh` of the row `A`, as a product with 2⁻¹⁰. -/
def recK (A Xh : Fin 1024 → EReal) : EReal :=
  (∑ j : Fin 1024, (Xh j - A j) * (Xh j - A j)) * cInv1024

/-- The same as a quotient by 1024, the sum started at zero. -/
def recR (A Xh : Fin 1024 → EReal) : EReal :=
  Ideal.div (cZero + ∑ j : Fin 1024, (Xh j - A j) * (Xh j - A j)) c1024

/-- The row `[Z, A]` of 1088 numbers. -/
def catRow (Z : Fin 64 → EReal) (A : Fin 1024 → EReal) (k : Fin 1088) : EReal :=
  if h : k.val < 64 then Z ⟨k.val, h⟩ else A ⟨k.val - 64, by have := k.isLt; omega⟩

/-- A survival logit as two partial products, against the first 64 and the last 1024 rows of the matrix. -/
def survK (Z : Fin 64 → EReal) (A : Fin 1024 → EReal) (sw : (⟨2, ![1088, 50]⟩ : Shape).Idx → EReal)
    (sb : (⟨1, ![50]⟩ : Shape).Idx → EReal) (j : Fin 50) : EReal :=
  ((∑ l : Fin 64, Z l * sw (ix2 (⟨l.val, by have := l.isLt; omega⟩ : Fin 1088) j))
    + (∑ i : Fin 1024, A i * sw (ix2 (⟨64 + i.val, by have := i.isLt; omega⟩ : Fin 1088) j))) + sb (ix1 j)

/-- The same as one product of the joined row. -/
def survR (Z : Fin 64 → EReal) (A : Fin 1024 → EReal) (sw : (⟨2, ![1088, 50]⟩ : Shape).Idx → EReal)
    (sb : (⟨1, ![50]⟩ : Shape).Idx → EReal) (j : Fin 50) : EReal :=
  (∑ k : Fin 1088, catRow Z A k * sw (ix2 k j)) + sb (ix1 j)

/-- The squared distance of a code to centre `k`, expanded and clamped at zero. -/
def dist2K (Z : Fin 64 → EReal) (cen : (⟨2, ![16, 64]⟩ : Shape).Idx → EReal) (k : Fin 16) : EReal :=
  max (((∑ l : Fin 64, Z l * Z l) - cTwo * (∑ l : Fin 64, Z l * cen (ix2 k l)))
    + (∑ l : Fin 64, cen (ix2 k l) * cen (ix2 k l))) cZero

/-- The same as the sum of squared differences, started at zero. -/
def dist2R (Z : Fin 64 → EReal) (cen : (⟨2, ![16, 64]⟩ : Shape).Idx → EReal) (k : Fin 16) : EReal :=
  cZero + ∑ l : Fin 64, (Z l - cen (ix2 k l)) * (Z l - cen (ix2 k l))

/-- The Student-t logit (one degree of freedom) of a squared distance. -/
def logit (d : EReal) : EReal := cNegOne * Ideal.log1p (Ideal.div d cOne)

/-- The maximum of 16 numbers, folded from the word for minus infinity. -/
def rowMax (f : Fin 16 → EReal) : EReal := (Finset.univ : Finset (Fin 16)).fold max cNegInf f

/-- The soft assignment: a softmax of the logits less their maximum. -/
def qK (Z : Fin 64 → EReal) (cen : (⟨2, ![16, 64]⟩ : Shape).Idx → EReal) (k : Fin 16) : EReal :=
  Ideal.div (Ideal.exp (logit (dist2K Z cen k) - rowMax fun k' => logit (dist2K Z cen k')))
    (∑ k'' : Fin 16, Ideal.exp (logit (dist2K Z cen k'') - rowMax fun k' => logit (dist2K Z cen k')))

/-- The shifted logits of the other spelling. -/
def shifted (Z : Fin 64 → EReal) (cen : (⟨2, ![16, 64]⟩ : Shape).Idx → EReal) (k : Fin 16) : EReal :=
  logit (dist2R Z cen k) - rowMax fun k' => logit (dist2R Z cen k')

/-- The soft assignment with the maximum of the shifted logits taken once more, and the sum started at zero. -/
def qR (Z : Fin 64 → EReal) (cen : (⟨2, ![16, 64]⟩ : Shape).Idx → EReal) (k : Fin 16) : EReal :=
  Ideal.div (Ideal.exp (shifted Z cen k - max cNegInf (rowMax (shifted Z cen))))
    (cZero + ∑ k'' : Fin 16, Ideal.exp (shifted Z cen k'' - max cNegInf (rowMax (shifted Z cen))))

end Cert.Spec

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«152418_g16879221473979_cont_7to1_943_28_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.KRows.lean ====
/-
  The kernel body's arithmetic, read one entry at a time on the extended reals.

  The body works on a block of 1024 rows. Entry (p, ·) of each of its five results depends on row p of the block
  of inputs only, and is the row-wise function of Spec.lean of that row: the code, the soft assignment, the survival
  logits, the reconstruction and its mean squared error. Biases arrive as one-row matrices; the part of the survival
  matrix that meets the code and the part that meets the input arrive as two separate matrices.
-/
import proofs.«152418_g16879221473979_cont_7to1_943_28_alg».proof.Proof.Gen.KernelIdeal.Skeleton
import proofs.«152418_g16879221473979_cont_7to1_943_28_alg».proof.Proof.Spec
import proofs.«152418_g16879221473979_cont_7to1_943_28_alg».proof.Proof.LibRows
import proofs.«152418_g16879221473979_cont_7to1_943_28_alg».proof.Proof.LibCols
import Idealize.ShloMosaic.Lib.ValueIdx
import Idealize.ShloMosaic.Lib.ValueLayout
import Idealize.ShloMosaic.Lib.Pipeline.Value
import Idealize.ShloMosaic.PureOps.Ideal.Laws

noncomputable section

namespace Cert.KRows

open Cert.KernelIdeal Cert.KernelIdeal.Gen Idealize.ShloMosaic Idealize.ShloMosaic.ValueIdx

/-- A one-row matrix as the vector of its entries. -/
abbrev rowVec {b : Nat} (B : (⟨2, ![1, b]⟩ : Shape).Idx → EReal) : (⟨1, ![b]⟩ : Shape).Idx → EReal :=
  fun i => B (ix2 (0 : Fin 1) (i 0))

/-- Row `p` of a block. -/
abbrev rowOf {a b : Nat} (X : (⟨2, ![a, b]⟩ : Shape).Idx → EReal) (p : Fin a) : Fin b → EReal := fun i => X (ix2 p i)

/-- The code: entry (p, l) of the first result is `zRow` of row p of the input block. -/
theorem pay3_apply (X : Vec Ideal S1024x1024 .f32) (W1 : Vec Ideal S1024x512 .f32) (B1 : Vec Ideal S1x512 .f32)
    (W2 : Vec Ideal S512x64 .f32) (B2 : Vec Ideal S1x64 .f32) (p : Fin 1024) (l : Fin 64) :
    k0_pay3 (F := Ideal) X W1 B1 W2 B2 (ix2 p l) = Cert.Spec.zRow (rowOf X p) W1 (rowVec B1) W2 (rowVec B2) l := by
  unfold k0_pay3 k0_pay2
  simp only [shapeCast_self]
  show (matmul (F := Ideal) dot_S1024x512_S512x64_S1024x64_1_0_0_1_n_n none _ _ (constant (F := Ideal) S1024x64 .f32 0x00000000#32) (ix2 p l) : EReal)
      + broadcastTo S1024x64 B2 broadcasts_S1x64_S1024x64 (ix2 p l) = _
  rw [Cert.LibRows.matmul_plain_apply dot_S1024x512_S512x64_S1024x64_1_0_0_1_n_n rfl, broadcastTo_1b_ab_apply]
  unfold Cert.Spec.zRow
  refine congrArg (fun s : EReal => s + B2 (ix2 (0 : Fin 1) l)) (Finset.sum_congr rfl fun k _ => ?_)
  refine congrArg (fun s : EReal => s * W2 (ix2 k l)) ?_
  show max ((matmul (F := Ideal) dot_S1024x1024_S1024x512_S1024x512_1_0_0_1_n_n none _ _ (constant (F := Ideal) S1024x512 .f32 0x00000000#32) (ix2 p k) : EReal)
      + broadcastTo S1024x512 B1 broadcasts_S1x512_S1024x512 (ix2 p k)) _ = _
  rw [Cert.LibRows.matmul_plain_apply dot_S1024x1024_S1024x512_S1024x512_1_0_0_1_n_n rfl, broadcastTo_1b_ab_apply]
  rfl

/-- The reconstruction: entry (p, j) of the fourth result is `xhatRow` of the row's code. -/
theorem pay9_apply (X : Vec Ideal S1024x1024 .f32) (W1 : Vec Ideal S1024x512 .f32) (B1 : Vec Ideal S1x512 .f32)
    (W2 : Vec Ideal S512x64 .f32) (B2 : Vec Ideal S1x64 .f32) (DW : Vec Ideal S64x1024 .f32) (DB : Vec Ideal S1x1024 .f32)
    (p : Fin 1024) (j : Fin 1024) :
    k0_pay9 (F := Ideal) (k0_pay4 (F := Ideal) X W1 B1 W2 B2) DW DB (ix2 p j)
      = Cert.Spec.xhatRow (fun l => Cert.Spec.zRow (rowOf X p) W1 (rowVec B1) W2 (rowVec B2) l) DW (rowVec DB) j := by
  unfold k0_pay9 k0_pay4
  simp only [shapeCast_self]
  show (matmul (F := Ideal) dot_S1024x64_S64x1024_S1024x1024_1_0_0_1_n_n none _ _ (constant (F := Ideal) S1024x1024 .f32 0x00000000#32) (ix2 p j) : EReal)
      + broadcastTo S1024x1024 DB broadcasts_S1x1024_S1024x1024 (ix2 p j) = _
  rw [Cert.LibRows.matmul_plain_apply dot_S1024x64_S64x1024_S1024x1024_1_0_0_1_n_n rfl, broadcastTo_1b_ab_apply]
  unfold Cert.Spec.xhatRow
  refine congrArg (fun s : EReal => s + DB (ix2 (0 : Fin 1) j)) (Finset.sum_congr rfl fun l _ => ?_)
  refine congrArg (fun s : EReal => s * DW (ix2 l j)) ?_
  exact pay3_apply X W1 B1 W2 B2 p l

/-- The mean squared error: entry (p, 0) of the fifth result, from row p of the input and of the reconstruction. -/
theorem pay1_apply (X : Vec Ideal S1024x1024 .f32) (XH : FVec Ideal S1024x1024 .f32) (p : Fin 1024) (u : Fin 1) :
    k0_pay1 (F := Ideal) X XH (ix2 p u) = Cert.Spec.recK (rowOf X p) (rowOf XH p) := by
  unfold k0_pay1
  show (shapeCast S1024x1 (multiReduction (F := Ideal) .add [1] S1024 (mulf (subf XH X) (subf XH X)) 0x00000000#32 reduces_S1024x1024_S1024 (.inl rfl) rfl) shapeCasts_S1024_S1024x1 (ix2 p u) : EReal)
      * Cert.Spec.cInv1024 = _
  rw [Cert.LibCols.shapeCast_a_a1_apply]
  refine congrArg (fun s : EReal => s * Cert.Spec.cInv1024) ?_
  refine (Ideal.multiReduction_add_single (mulf (F := Ideal) (subf XH X) (subf XH X)) 0x00000000#32 reduces_S1024x1024_S1024 (.inl rfl) rfl (ix1 p)).trans ?_
  refine Finset.sum_congr rfl fun q _ => ?_
  have e : reduces_S1024x1024_S1024.lift (ix1 p) q = ix2 p q :=
    funext fun a => Fin.ext (by match a with | ⟨0, _⟩ => rfl | ⟨1, _⟩ => rfl)
  show (fun i : S1024x1024.Idx => ((XH i : EReal) - X i) * (XH i - X i)) (reduces_S1024x1024_S1024.lift (ix1 p) q) = _
  rw [e]
  rfl

/-- The survival logits: entry (p, j) of the third result, the two partial products and the bias. -/
theorem pay8_apply (X : Vec Ideal S1024x1024 .f32) (W1 : Vec Ideal S1024x512 .f32) (B1 : Vec Ideal S1x512 .f32)
    (W2 : Vec Ideal S512x64 .f32) (B2 : Vec Ideal S1x64 .f32) (SWZ : Vec Ideal S64x50 .f32) (SWX : Vec Ideal S1024x50 .f32)
    (SB : Vec Ideal S1x50 .f32) (p : Fin 1024) (j : Fin 50) :
    k0_pay8 (F := Ideal) (k0_pay2 (F := Ideal) X) (k0_pay4 (F := Ideal) X W1 B1 W2 B2) SWZ SWX SB (ix2 p j)
      = ((∑ l : Fin 64, Cert.Spec.zRow (rowOf X p) W1 (rowVec B1) W2 (rowVec B2) l * SWZ (ix2 l j))
          + (∑ i : Fin 1024, X (ix2 p i) * SWX (ix2 i j))) + SB (ix2 (0 : Fin 1) j) := by
  unfold k0_pay8 k0_pay4 k0_pay2
  simp only [shapeCast_self]
  show ((matmul (F := Ideal) dot_S1024x64_S64x50_S1024x50_1_0_0_1_n_n none _ _ (constant (F := Ideal) S1024x50 .f32 0x00000000#32) (ix2 p j) : EReal)
      + (matmul (F := Ideal) dot_S1024x1024_S1024x50_S1024x50_1_0_0_1_n_n none _ _ (constant (F := Ideal) S1024x50 .f32 0x00000000#32) (ix2 p j) : EReal))
      + broadcastTo S1024x50 SB broadcasts_S1x50_S1024x50 (ix2 p j) = _
  rw [Cert.LibRows.matmul_plain_apply dot_S1024x64_S64x50_S1024x50_1_0_0_1_n_n rfl,
    Cert.LibRows.matmul_plain_apply dot_S1024x1024_S1024x50_S1024x50_1_0_0_1_n_n rfl, broadcastTo_1b_ab_apply]
  refine congrArg (fun s : EReal => (s + ∑ i : Fin 1024, X (ix2 p i) * SWX (ix2 i j)) + SB (ix2 (0 : Fin 1) j)) ?_
  refine Finset.sum_congr rfl fun l _ => ?_
  refine congrArg (fun s : EReal => s * SWZ (ix2 l j)) ?_
  exact pay3_apply X W1 B1 W2 B2 p l

end Cert.KRows

end
-- ==== Proof.KSoft.lean ====
/-
  The kernel body's soft assignment, read one entry at a time on the extended reals.

  For row p of the block the body has the row's code Z (64 numbers). Against each of the 16 centres it forms the expanded
  squared distance `∑ Z² - 2 ∑ Z c + ∑ c²` — the middle sum a product of the code block with the TRANSPOSE of the centres —,
  clamps it at zero, takes the Student-t logit, and normalises the row of 16 logits by a softmax: the row maximum taken away,
  exponentials, and the quotient by their row sum. The row maximum and the row sum come back as columns repeated across
  the 16 entries.
-/
import proofs.«152418_g16879221473979_cont_7to1_943_28_alg».proof.Proof.Gen.KernelIdeal.Skeleton
import proofs.«152418_g16879221473979_cont_7to1_943_28_alg».proof.Proof.Spec
import proofs.«152418_g16879221473979_cont_7to1_943_28_alg».proof.Proof.LibCols
import Idealize.ShloMosaic.Lib.ValueIdx
import Idealize.ShloMosaic.Lib.ValueLayout
import Idealize.ShloMosaic.Lib.Pipeline.Value
import Idealize.ShloMosaic.PureOps.Ideal.Laws

noncomputable section

namespace Cert.KSoft

open Cert.KernelIdeal Cert.KernelIdeal.Gen Idealize.ShloMosaic Idealize.ShloMosaic.ValueIdx

/-! ## A product with a transposed right factor -/

theorem nt_rank : dot_S1024x64_S16x64_S1024x16_1_1_0_0_n_n.contr.rank = 1 := by decide
theorem nt_size : dot_S1024x64_S16x64_S1024x16_1_1_0_0_n_n.contr.size ⟨0, by rw [nt_rank]; decide⟩ = 64 := by decide

theorem nt_lhs0 (i : S1024x16.Idx) (q : dot_S1024x64_S16x64_S1024x16_1_1_0_0_n_n.contr.Idx) :
    (dot_S1024x64_S16x64_S1024x16_1_1_0_0_n_n.lhsIdx i q 0).val = (i 0).val := by
  unfold DotDims.lhsIdx
  rw [dif_neg (show ¬(0 : Fin S1024x64.rank) ∈ dot_S1024x64_S16x64_S1024x16_1_1_0_0_n_n.lhsBatch by decide), dif_pos (show (0 : Fin S1024x64.rank) ∈ dot_S1024x64_S16x64_S1024x16_1_1_0_0_n_n.lhsNonContracting by decide)]
  rfl
theorem nt_lhs1 (i : S1024x16.Idx) (q : dot_S1024x64_S16x64_S1024x16_1_1_0_0_n_n.contr.Idx) :
    (dot_S1024x64_S16x64_S1024x16_1_1_0_0_n_n.lhsIdx i q 1).val = (q ⟨0, by decide⟩).val :=
  dot_S1024x64_S16x64_S1024x16_1_1_0_0_n_n.lhsIdx_val_of_single rfl i q
theorem nt_rhs0 (i : S1024x16.Idx) (q : dot_S1024x64_S16x64_S1024x16_1_1_0_0_n_n.contr.Idx) :
    (dot_S1024x64_S16x64_S1024x16_1_1_0_0_n_n.rhsIdx i q 0).val = (i 1).val := by
  unfold DotDims.rhsIdx
  rw [dif_neg (show ¬(0 : Fin S16x64.rank) ∈ dot_S1024x64_S16x64_S1024x16_1_1_0_0_n_n.rhsBatch by decide), dif_pos (show (0 : Fin S16x64.rank) ∈ dot_S1024x64_S16x64_S1024x16_1_1_0_0_n_n.rhsNonContracting by decide)]
  rfl
theorem nt_rhs1 (i : S1024x16.Idx) (q : dot_S1024x64_S16x64_S1024x16_1_1_0_0_n_n.contr.Idx) :
    (dot_S1024x64_S16x64_S1024x16_1_1_0_0_n_n.rhsIdx i q 1).val = (q ⟨0, by decide⟩).val :=
  dot_S1024x64_S16x64_S1024x16_1_1_0_0_n_n.rhsIdx_val_of_single rfl i q

/-- The product of a [1024, 64] block with the transpose of a [16, 64] array, into a zero accumulator, at entry (p, k):
    the sum over the 64 shared columns. -/
theorem matmul_nt_apply (L : FVec Ideal S1024x64 .f32) (R : FVec Ideal S16x64 .f32) (p : Fin 1024) (k : Fin 16) :
    matmul (F := Ideal) dot_S1024x64_S16x64_S1024x16_1_1_0_0_n_n none L R (constant (F := Ideal) S1024x16 .f32 0x00000000#32) (ix2 p k)
      = ∑ l : Fin 64, L (ix2 p l) * R (ix2 k l) := by
  refine (Ideal.matmul_constant_zero_apply dot_S1024x64_S16x64_S1024x16_1_1_0_0_n_n none L R (ix2 p k)).trans ?_
  rw [← Equiv.sum_comp (contrEquiv1 dot_S1024x64_S16x64_S1024x16_1_1_0_0_n_n 64 rfl rfl).symm]
  refine Finset.sum_congr rfl fun l _ => ?_
  have hk := contrEquiv1_symm_val dot_S1024x64_S16x64_S1024x16_1_1_0_0_n_n 64 rfl rfl l
  have el : dot_S1024x64_S16x64_S1024x16_1_1_0_0_n_n.lhsIdx (ix2 p k) ((contrEquiv1 dot_S1024x64_S16x64_S1024x16_1_1_0_0_n_n 64 rfl rfl).symm l) = ix2 p l :=
    funext fun a => Fin.ext (by
      match a with
      | ⟨0, _⟩ => exact nt_lhs0 _ _
      | ⟨1, _⟩ => exact (nt_lhs1 _ _).trans hk)
  have er : dot_S1024x64_S16x64_S1024x16_1_1_0_0_n_n.rhsIdx (ix2 p k) ((contrEquiv1 dot_S1024x64_S16x64_S1024x16_1_1_0_0_n_n 64 rfl rfl).symm l) = ix2 k l :=
    funext fun a => Fin.ext (by
      match a with
      | ⟨0, _⟩ => exact nt_rhs0 _ _
      | ⟨1, _⟩ => exact (nt_rhs1 _ _).trans hk)
  rw [el, er]

/-! ## A row's maximum and a row's sum, repeated across the row -/

/-- The row maxima of a [1024, 16] array, folded from the word for minus infinity, as a column repeated across the row. -/
def mxCol (L : FVec Ideal S1024x16 .f32) : FVec Ideal S1024x16 .f32 :=
  broadcastTo S1024x16 (shapeCast S1024x1 (multiReduction (F := Ideal) .maximumf [1] S1024 L 0xFF800000#32 reduces_S1024x16_S1024 (.inl rfl) rfl)
    shapeCasts_S1024_S1024x1) broadcasts_S1024x1_S1024x16

/-- The row sums of a [1024, 16] array as a column repeated across the row. -/
def smCol (E : FVec Ideal S1024x16 .f32) : FVec Ideal S1024x16 .f32 :=
  broadcastTo S1024x16 (shapeCast S1024x1 (multiReduction (F := Ideal) .add [1] S1024 E 0x00000000#32 reduces_S1024x16_S1024 (.inl rfl) rfl)
    shapeCasts_S1024_S1024x1) broadcasts_S1024x1_S1024x16

theorem lift16 (p : Fin 1024) (q : Fin 16) : reduces_S1024x16_S1024.lift (ix1 p) q = ix2 p q :=
  funext fun a => Fin.ext (by match a with | ⟨0, _⟩ => rfl | ⟨1, _⟩ => rfl)

theorem mxCol_apply (L : FVec Ideal S1024x16 .f32) (p : Fin 1024) (q : Fin 16) :
    mxCol L (ix2 p q) = Cert.Spec.rowMax fun k' => L (ix2 p k') := by
  unfold mxCol
  rw [Cert.LibCols.broadcastTo_a1_ab_apply, Cert.LibCols.shapeCast_a_a1_apply]
  refine (Ideal.multiReduction_maximumf_single L 0xFF800000#32 reduces_S1024x16_S1024 (.inl rfl) rfl (ix1 p)).trans ?_
  unfold Cert.Spec.rowMax
  have e : (L ∘ reduces_S1024x16_S1024.lift (ix1 p)) = fun k' : Fin 16 => L (ix2 p k') :=
    funext fun k' => congrArg L (lift16 p k')
  rw [e]
  rfl

theorem smCol_apply (E : FVec Ideal S1024x16 .f32) (p : Fin 1024) (q : Fin 16) :
    smCol E (ix2 p q) = ∑ k' : Fin 16, E (ix2 p k') := by
  unfold smCol
  rw [Cert.LibCols.broadcastTo_a1_ab_apply, Cert.LibCols.shapeCast_a_a1_apply]
  refine (Ideal.multiReduction_add_single E 0x00000000#32 reduces_S1024x16_S1024 (.inl rfl) rfl (ix1 p)).trans ?_
  exact Finset.sum_congr rfl fun k' _ => congrArg E (lift16 p k')

/-! ## The softmax of the logits -/

/-- The logits from the (unclamped) expanded distances `D` and the zero splat `Z0`. -/
def lg (D Z0 : FVec Ideal S1024x16 .f32) : FVec Ideal S1024x16 .f32 :=
  mulf (broadcast S1024x16 (Scalar.ofBits (F := Ideal) .f32 0xBF800000#32))
    (log1p (divf (maximumf D Z0) (broadcast S1024x16 (Scalar.ofBits (F := Ideal) .f32 0x3F800000#32))))

/-- The body's soft assignment is the softmax of those logits. -/
theorem pay7_eq (D Z0 : FVec Ideal S1024x16 .f32) :
    k0_pay7 (F := Ideal) D Z0 = divf (exp (subf (lg D Z0) (mxCol (lg D Z0)))) (smCol (exp (subf (lg D Z0) (mxCol (lg D Z0))))) := rfl

/-- Entry (p, k) of the soft assignment from row p of the logits. -/
theorem pay7_apply (D Z0 : FVec Ideal S1024x16 .f32) (p : Fin 1024) (k : Fin 16) :
    k0_pay7 (F := Ideal) D Z0 (ix2 p k)
      = Ideal.div (Ideal.exp (lg D Z0 (ix2 p k) - Cert.Spec.rowMax fun k' => lg D Z0 (ix2 p k')))
          (∑ k'' : Fin 16, Ideal.exp (lg D Z0 (ix2 p k'') - Cert.Spec.rowMax fun k' => lg D Z0 (ix2 p k'))) := by
  have e : ∀ q : Fin 16, exp (F := Ideal) (subf (lg D Z0) (mxCol (lg D Z0))) (ix2 p q)
      = Ideal.exp (lg D Z0 (ix2 p q) - Cert.Spec.rowMax fun k' => lg D Z0 (ix2 p k')) := fun q => by
    show Ideal.exp (lg D Z0 (ix2 p q) - mxCol (lg D Z0) (ix2 p q)) = _
    rw [mxCol_apply]
  rw [pay7_eq]
  show Ideal.div (exp (F := Ideal) (subf (lg D Z0) (mxCol (lg D Z0))) (ix2 p k))
      (smCol (exp (F := Ideal) (subf (lg D Z0) (mxCol (lg D Z0)))) (ix2 p k)) = _
  rw [smCol_apply, e k]
  exact congrArg (Ideal.div _) (Finset.sum_congr rfl fun q _ => e q)

/-! ## The expanded distances -/

theorem lift64 (p : Fin 1024) (q : Fin 64) : reduces_S1024x64_S1024.lift (ix1 p) q = ix2 p q :=
  funext fun a => Fin.ext (by match a with | ⟨0, _⟩ => rfl | ⟨1, _⟩ => rfl)

theorem lift64c (k : Fin 16) (q : Fin 64) : reduces_S16x64_S16.lift (ix1 k) q = ix2 k q :=
  funext fun a => Fin.ext (by match a with | ⟨0, _⟩ => rfl | ⟨1, _⟩ => rfl)

/-- Entry (p, k) of the expanded distance, from row p of the code block `ZB` and centre k. -/
theorem predist_apply (ZB : FVec Ideal S1024x64 .f32) (CEN : FVec Ideal S16x64 .f32) (p : Fin 1024) (k : Fin 16) :
    addf (F := Ideal)
      (subf (broadcastTo S1024x16 (shapeCast S1024x1 (multiReduction (F := Ideal) .add [1] S1024 (mulf ZB ZB) 0x00000000#32 reduces_S1024x64_S1024 (.inl rfl) rfl) shapeCasts_S1024_S1024x1) broadcasts_S1024x1_S1024x16)
        (mulf (broadcast S1024x16 (Scalar.ofBits (F := Ideal) .f32 0x40000000#32))
          (matmul (F := Ideal) dot_S1024x64_S16x64_S1024x16_1_1_0_0_n_n none ZB CEN (constant (F := Ideal) S1024x16 .f32 0x00000000#32))))
      (broadcastTo S1024x16 (shapeCast S1x16 (multiReduction (F := Ideal) .add [1] S16 (mulf (F := Ideal) CEN CEN) 0x00000000#32 reduces_S16x64_S16 (.inl rfl) rfl) shapeCasts_S16_S1x16) broadcasts_S1x16_S1024x16)
      (ix2 p k)
    = ((∑ l : Fin 64, ZB (ix2 p l) * ZB (ix2 p l)) - Cert.Spec.cTwo * (∑ l : Fin 64, ZB (ix2 p l) * CEN (ix2 k l)))
        + (∑ l : Fin 64, CEN (ix2 k l) * CEN (ix2 k l)) := by
  show ((broadcastTo S1024x16 (shapeCast S1024x1 (multiReduction (F := Ideal) .add [1] S1024 (mulf ZB ZB) 0x00000000#32 reduces_S1024x64_S1024 (.inl rfl) rfl) shapeCasts_S1024_S1024x1) broadcasts_S1024x1_S1024x16 (ix2 p k) : EReal)
      - Cert.Spec.cTwo * (matmul (F := Ideal) dot_S1024x64_S16x64_S1024x16_1_1_0_0_n_n none ZB CEN (constant (F := Ideal) S1024x16 .f32 0x00000000#32) (ix2 p k) : EReal))
      + (broadcastTo S1024x16 (shapeCast S1x16 (multiReduction (F := Ideal) .add [1] S16 (mulf (F := Ideal) CEN CEN) 0x00000000#32 reduces_S16x64_S16 (.inl rfl) rfl) shapeCasts_S16_S1x16) broadcasts_S1x16_S1024x16 (ix2 p k) : EReal) = _
  rw [Cert.LibCols.broadcastTo_a1_ab_apply, Cert.LibCols.shapeCast_a_a1_apply, matmul_nt_apply, broadcastTo_1b_ab_apply, shapeCast_a_1a_apply]
  have e1 : multiReduction (F := Ideal) .add [1] S1024 (mulf ZB ZB) 0x00000000#32 reduces_S1024x64_S1024 (.inl rfl) rfl (ix1 p)
      = ∑ l : Fin 64, ZB (ix2 p l) * ZB (ix2 p l) :=
    (Ideal.multiReduction_add_single (mulf (F := Ideal) ZB ZB) 0x00000000#32 reduces_S1024x64_S1024 (.inl rfl) rfl (ix1 p)).trans
      (Finset.sum_congr rfl fun l _ => congrArg (fun i : S1024x64.Idx => (ZB i : EReal) * ZB i) (lift64 p l))
  have e2 : multiReduction (F := Ideal) .add [1] S16 (mulf (F := Ideal) CEN CEN) 0x00000000#32 reduces_S16x64_S16 (.inl rfl) rfl (ix1 k)
      = ∑ l : Fin 64, CEN (ix2 k l) * CEN (ix2 k l) :=
    (Ideal.multiReduction_add_single (mulf (F := Ideal) CEN CEN) 0x00000000#32 reduces_S16x64_S16 (.inl rfl) rfl (ix1 k)).trans
      (Finset.sum_congr rfl fun l _ => congrArg (fun i : S16x64.Idx => (CEN i : EReal) * CEN i) (lift64c k l))
  rw [e1, e2]

/-- The body's expanded distances are that expression of its code block. -/
theorem pay5_eq (X : Vec Ideal S1024x1024 .f32) (W1 : Vec Ideal S1024x512 .f32) (B1 : Vec Ideal S1x512 .f32)
    (W2 : Vec Ideal S512x64 .f32) (B2 : Vec Ideal S1x64 .f32) (CEN : Vec Ideal S16x64 .f32) (p : Fin 1024) (k : Fin 16) :
    k0_pay5 (F := Ideal) X W1 B1 W2 B2 CEN (ix2 p k)
      = ((∑ l : Fin 64, k0_pay3 (F := Ideal) X W1 B1 W2 B2 (ix2 p l) * k0_pay3 (F := Ideal) X W1 B1 W2 B2 (ix2 p l))
          - Cert.Spec.cTwo * (∑ l : Fin 64, k0_pay3 (F := Ideal) X W1 B1 W2 B2 (ix2 p l) * CEN (ix2 k l)))
        + (∑ l : Fin 64, CEN (ix2 k l) * CEN (ix2 k l)) :=
  predist_apply (k0_pay3 (F := Ideal) X W1 B1 W2 B2) CEN p k

/-- So entry (p, k) of the logits is the logit of the clamped expanded distance of the row's code to centre k. -/
theorem lg_apply (X : Vec Ideal S1024x1024 .f32) (W1 : Vec Ideal S1024x512 .f32) (B1 : Vec Ideal S1x512 .f32)
    (W2 : Vec Ideal S512x64 .f32) (B2 : Vec Ideal S1x64 .f32) (CEN : Vec Ideal S16x64 .f32) (p : Fin 1024) (k : Fin 16) :
    lg (k0_pay5 (F := Ideal) X W1 B1 W2 B2 CEN) (k0_pay6 (F := Ideal)) (ix2 p k)
      = Cert.Spec.logit (Cert.Spec.dist2K (fun l => k0_pay3 (F := Ideal) X W1 B1 W2 B2 (ix2 p l)) CEN k) := by
  show Cert.Spec.cNegOne * Ideal.log1p (Ideal.div (max (k0_pay5 (F := Ideal) X W1 B1 W2 B2 CEN (ix2 p k)) Cert.Spec.cZero) Cert.Spec.cOne) = _
  rw [pay5_eq]
  rfl

/-- Entry (p, k) of the second result: the soft assignment of the row's code. -/
theorem q_apply (X : Vec Ideal S1024x1024 .f32) (W1 : Vec Ideal S1024x512 .f32) (B1 : Vec Ideal S1x512 .f32)
    (W2 : Vec Ideal S512x64 .f32) (B2 : Vec Ideal S1x64 .f32) (CEN : Vec Ideal S16x64 .f32) (p : Fin 1024) (k : Fin 16) :
    k0_pay7 (F := Ideal) (k0_pay5 (F := Ideal) X W1 B1 W2 B2 CEN) (k0_pay6 (F := Ideal)) (ix2 p k)
      = Cert.Spec.qK (fun l => k0_pay3 (F := Ideal) X W1 B1 W2 B2 (ix2 p l)) CEN k := by
  rw [pay7_apply]
  simp only [lg_apply]
  rfl

end Cert.KSoft

end
-- ==== Proof.KIdx.lean ====
/-
  The kernel body's five results at ANY index of their blocks: entry j of each depends on row (j 0) of the block of
  inputs, and is the row-wise function of Spec.lean of that row at column (j 1). The survival matrix reaches the body in
  two pieces, its first 64 rows and its last 1024 rows.
-/
import proofs.«152418_g16879221473979_cont_7to1_943_28_alg».proof.Proof.KRows
import proofs.«152418_g16879221473979_cont_7to1_943_28_alg».proof.Proof.KSoft

noncomputable section

namespace Cert.KIdx

open Cert.KernelIdeal Cert.KernelIdeal.Gen Idealize.ShloMosaic Idealize.ShloMosaic.ValueIdx Cert.KRows

/-- The code of row p of a block of inputs. -/
abbrev zR (X : Vec Ideal S1024x1024 .f32) (W1 : Vec Ideal S1024x512 .f32) (B1 : Vec Ideal S1x512 .f32)
    (W2 : Vec Ideal S512x64 .f32) (B2 : Vec Ideal S1x64 .f32) (p : Fin 1024) : Fin 64 → EReal :=
  fun l => Cert.Spec.zRow (rowOf X p) W1 (rowVec B1) W2 (rowVec B2) l

theorem pay3_idx (X : Vec Ideal S1024x1024 .f32) (W1 : Vec Ideal S1024x512 .f32) (B1 : Vec Ideal S1x512 .f32)
    (W2 : Vec Ideal S512x64 .f32) (B2 : Vec Ideal S1x64 .f32) (j : S1024x64.Idx) :
    k0_pay3 (F := Ideal) X W1 B1 W2 B2 j = zR X W1 B1 W2 B2 (j 0) (j 1) := by
  obtain ⟨p, l, rfl⟩ : ∃ (p : Fin 1024) (l : Fin 64), j = ix2 p l := ⟨j 0, j 1, eq_ix2 j⟩
  exact pay3_apply X W1 B1 W2 B2 p l

theorem q_idx (X : Vec Ideal S1024x1024 .f32) (W1 : Vec Ideal S1024x512 .f32) (B1 : Vec Ideal S1x512 .f32)
    (W2 : Vec Ideal S512x64 .f32) (B2 : Vec Ideal S1x64 .f32) (CEN : Vec Ideal S16x64 .f32) (j : S1024x16.Idx) :
    k0_pay7 (F := Ideal) (k0_pay5 (F := Ideal) X W1 B1 W2 B2 CEN) (k0_pay6 (F := Ideal)) j
      = Cert.Spec.qK (zR X W1 B1 W2 B2 (j 0)) CEN (j 1) := by
  obtain ⟨p, k, rfl⟩ : ∃ (p : Fin 1024) (k : Fin 16), j = ix2 p k := ⟨j 0, j 1, eq_ix2 j⟩
  have e : (fun l => k0_pay3 (F := Ideal) X W1 B1 W2 B2 (ix2 p l)) = zR X W1 B1 W2 B2 p :=
    funext fun l => pay3_apply X W1 B1 W2 B2 p l
  exact (Cert.KSoft.q_apply X W1 B1 W2 B2 CEN p k).trans (congrArg (fun Z : Fin 64 → EReal => Cert.Spec.qK Z CEN k) e)

theorem xhat_idx (X : Vec Ideal S1024x1024 .f32) (W1 : Vec Ideal S1024x512 .f32) (B1 : Vec Ideal S1x512 .f32)
    (W2 : Vec Ideal S512x64 .f32) (B2 : Vec Ideal S1x64 .f32) (DW : Vec Ideal S64x1024 .f32) (DB : Vec Ideal S1x1024 .f32)
    (j : S1024x1024.Idx) :
    k0_pay9 (F := Ideal) (k0_pay4 (F := Ideal) X W1 B1 W2 B2) DW DB j
      = Cert.Spec.xhatRow (zR X W1 B1 W2 B2 (j 0)) DW (rowVec DB) (j 1) := by
  obtain ⟨p, q, rfl⟩ : ∃ (p : Fin 1024) (q : Fin 1024), j = ix2 p q := ⟨j 0, j 1, eq_ix2 j⟩
  exact pay9_apply X W1 B1 W2 B2 DW DB p q

theorem rec_idx (X : Vec Ideal S1024x1024 .f32) (W1 : Vec Ideal S1024x512 .f32) (B1 : Vec Ideal S1x512 .f32)
    (W2 : Vec Ideal S512x64 .f32) (B2 : Vec Ideal S1x64 .f32) (DW : Vec Ideal S64x1024 .f32) (DB : Vec Ideal S1x1024 .f32)
    (j : S1024x1.Idx) :
    k0_pay1 (F := Ideal) X (k0_pay9 (F := Ideal) (k0_pay4 (F := Ideal) X W1 B1 W2 B2) DW DB) j
      = Cert.Spec.recK (rowOf X (j 0)) (fun q => Cert.Spec.xhatRow (zR X W1 B1 W2 B2 (j 0)) DW (rowVec DB) q) := by
  obtain ⟨p, u, rfl⟩ : ∃ (p : Fin 1024) (u : Fin 1), j = ix2 p u := ⟨j 0, j 1, eq_ix2 j⟩
  have e : rowOf (k0_pay9 (F := Ideal) (k0_pay4 (F := Ideal) X W1 B1 W2 B2) DW DB) p
      = fun q => Cert.Spec.xhatRow (zR X W1 B1 W2 B2 p) DW (rowVec DB) q :=
    funext fun q => pay9_apply X W1 B1 W2 B2 DW DB p q
  exact (pay1_apply X _ p u).trans (congrArg (fun Xh : Fin 1024 → EReal => Cert.Spec.recK (rowOf X p) Xh) e)

theorem surv_idx (X : Vec Ideal S1024x1024 .f32) (W1 : Vec Ideal S1024x512 .f32) (B1 : Vec Ideal S1x512 .f32)
    (W2 : Vec Ideal S512x64 .f32) (B2 : Vec Ideal S1x64 .f32) (SWZ : Vec Ideal S64x50 .f32) (SWX : Vec Ideal S1024x50 .f32)
    (SB : Vec Ideal S1x50 .f32) (sw : S1088x50.Idx → EReal) (sb : S50.Idx → EReal)
    (hz : ∀ (l : Fin 64) (q : Fin 50), SWZ (ix2 l q) = sw (ix2 (⟨l.val, by have := l.isLt; omega⟩ : Fin 1088) q))
    (hx : ∀ (i : Fin 1024) (q : Fin 50), SWX (ix2 i q) = sw (ix2 (⟨64 + i.val, by have := i.isLt; omega⟩ : Fin 1088) q))
    (hb : rowVec SB = sb) (j : S1024x50.Idx) :
    k0_pay8 (F := Ideal) (k0_pay2 (F := Ideal) X) (k0_pay4 (F := Ideal) X W1 B1 W2 B2) SWZ SWX SB j
      = Cert.Spec.survK (zR X W1 B1 W2 B2 (j 0)) (rowOf X (j 0)) sw sb (j 1) := by
  obtain ⟨p, q, rfl⟩ : ∃ (p : Fin 1024) (q : Fin 50), j = ix2 p q := ⟨j 0, j 1, eq_ix2 j⟩
  subst hb
  refine (pay8_apply X W1 B1 W2 B2 SWZ SWX SB p q).trans ?_
  unfold Cert.Spec.survK
  simp only [hz, hx]

/-! ## The same, with the row and the weights named -/

section Named

variable (X : Vec Ideal S1024x1024 .f32) (W1 : Vec Ideal S1024x512 .f32) (B1 : Vec Ideal S1x512 .f32)
  (W2 : Vec Ideal S512x64 .f32) (B2 : Vec Ideal S1x64 .f32)
  {A : Fin 1024 → EReal} {w1 : S1024x512.Idx → EReal} {b1 : S512.Idx → EReal} {w2 : S512x64.Idx → EReal} {b2 : S64.Idx → EReal}

theorem q_named (CEN : Vec Ideal S16x64 .f32) (j : S1024x16.Idx) {cen : S16x64.Idx → EReal}
    (hA : rowOf X (j 0) = A) (hW1 : W1 = w1) (hB1 : rowVec B1 = b1) (hW2 : W2 = w2) (hB2 : rowVec B2 = b2) (hC : CEN = cen) :
    k0_pay7 (F := Ideal) (k0_pay5 (F := Ideal) X W1 B1 W2 B2 CEN) (k0_pay6 (F := Ideal)) j
      = Cert.Spec.qK (fun l => Cert.Spec.zRow A w1 b1 w2 b2 l) cen (j 1) := by
  subst hA hW1 hB1 hW2 hB2 hC
  exact q_idx X W1 B1 W2 B2 CEN j

theorem xhat_named (DW : Vec Ideal S64x1024 .f32) (DB : Vec Ideal S1x1024 .f32) (j : S1024x1024.Idx)
    {dw : S64x1024.Idx → EReal} {db : S1024.Idx → EReal}
    (hA : rowOf X (j 0) = A) (hW1 : W1 = w1) (hB1 : rowVec B1 = b1) (hW2 : W2 = w2) (hB2 : rowVec B2 = b2)
    (hDW : DW = dw) (hDB : rowVec DB = db) :
    k0_pay9 (F := Ideal) (k0_pay4 (F := Ideal) X W1 B1 W2 B2) DW DB j
      = Cert.Spec.xhatRow (fun l => Cert.Spec.zRow A w1 b1 w2 b2 l) dw db (j 1) := by
  subst hA hW1 hB1 hW2 hB2 hDW hDB
  exact xhat_idx X W1 B1 W2 B2 DW DB j

theorem rec_named (DW : Vec Ideal S64x1024 .f32) (DB : Vec Ideal S1x1024 .f32) (j : S1024x1.Idx)
    {dw : S64x1024.Idx → EReal} {db : S1024.Idx → EReal}
    (hA : rowOf X (j 0) = A) (hW1 : W1 = w1) (hB1 : rowVec B1 = b1) (hW2 : W2 = w2) (hB2 : rowVec B2 = b2)
    (hDW : DW = dw) (hDB : rowVec DB = db) :
    k0_pay1 (F := Ideal) X (k0_pay9 (F := Ideal) (k0_pay4 (F := Ideal) X W1 B1 W2 B2) DW DB) j
      = Cert.Spec.recK A (fun q => Cert.Spec.xhatRow (fun l => Cert.Spec.zRow A w1 b1 w2 b2 l) dw db q) := by
  subst hA hW1 hB1 hW2 hB2 hDW hDB
  exact rec_idx X W1 B1 W2 B2 DW DB j

theorem surv_named (SWZ : Vec Ideal S64x50 .f32) (SWX : Vec Ideal S1024x50 .f32)
    (SB : Vec Ideal S1x50 .f32) (sw : S1088x50.Idx → EReal) (sb : S50.Idx → EReal)
    (hz : ∀ (l : Fin 64) (q : Fin 50), SWZ (ix2 l q) = sw (ix2 (⟨l.val, by have := l.isLt; omega⟩ : Fin 1088) q))
    (hx : ∀ (i : Fin 1024) (q : Fin 50), SWX (ix2 i q) = sw (ix2 (⟨64 + i.val, by have := i.isLt; omega⟩ : Fin 1088) q))
    (hb : rowVec SB = sb) (j : S1024x50.Idx)
    (hA : rowOf X (j 0) = A) (hW1 : W1 = w1) (hB1 : rowVec B1 = b1) (hW2 : W2 = w2) (hB2 : rowVec B2 = b2) :
    k0_pay8 (F := Ideal) (k0_pay2 (F := Ideal) X) (k0_pay4 (F := Ideal) X W1 B1 W2 B2) SWZ SWX SB j
      = Cert.Spec.survK (fun l => Cert.Spec.zRow A w1 b1 w2 b2 l) A sw sb (j 1) := by
  subst hA hW1 hB1 hW2 hB2
  exact surv_idx X W1 B1 W2 B2 SWZ SWX SB sw sb hz hx hb j

end Named

end Cert.KIdx

end
-- ==== Proof.Results.lean ====
/-
  The nine results of the fused forward pass as whole arrays, functions of the ten argument arrays: row r of each is
  the row-wise function of Spec.lean of row r of the input (the kernel's spellings: the mean as a product with 2⁻¹⁰,
  the survival logits as two partial products, the expanded squared distances, the plain softmax).
-/
import proofs.«152418_g16879221473979_cont_7to1_943_28_alg».proof.Proof.Spec

noncomputable section

namespace Cert.Results

open Idealize.ShloMosaic Idealize.ShloMosaic.ValueIdx Cert.Spec

/-- Row r of the input. -/
def rowOf (x0 : (⟨2, ![8192, 1024]⟩ : Shape).Idx → EReal) (r : Fin 8192) : Fin 1024 → EReal := fun i => x0 (ix2 r i)

/-- Row r of the code. -/
def zOf (x0 : (⟨2, ![8192, 1024]⟩ : Shape).Idx → EReal) (x1 : (⟨2, ![1024, 512]⟩ : Shape).Idx → EReal)
    (x2 : (⟨1, ![512]⟩ : Shape).Idx → EReal) (x3 : (⟨2, ![512, 64]⟩ : Shape).Idx → EReal) (x4 : (⟨1, ![64]⟩ : Shape).Idx → EReal)
    (r : Fin 8192) : Fin 64 → EReal := fun l => zRow (rowOf x0 r) x1 x2 x3 x4 l

/-- The code. -/
def Gz (x0 : (⟨2, ![8192, 1024]⟩ : Shape).Idx → EReal) (x1 : (⟨2, ![1024, 512]⟩ : Shape).Idx → EReal)
    (x2 : (⟨1, ![512]⟩ : Shape).Idx → EReal) (x3 : (⟨2, ![512, 64]⟩ : Shape).Idx → EReal) (x4 : (⟨1, ![64]⟩ : Shape).Idx → EReal) :
    (⟨2, ![8192, 64]⟩ : Shape).Idx → EReal := fun i => zOf x0 x1 x2 x3 x4 (i 0) (i 1)

/-- The reconstruction. -/
def Gxhat (x0 : (⟨2, ![8192, 1024]⟩ : Shape).Idx → EReal) (x1 : (⟨2, ![1024, 512]⟩ : Shape).Idx → EReal)
    (x2 : (⟨1, ![512]⟩ : Shape).Idx → EReal) (x3 : (⟨2, ![512, 64]⟩ : Shape).Idx → EReal) (x4 : (⟨1, ![64]⟩ : Shape).Idx → EReal)
    (x5 : (⟨2, ![64, 1024]⟩ : Shape).Idx → EReal) (x6 : (⟨1, ![1024]⟩ : Shape).Idx → EReal) :
    (⟨2, ![8192, 1024]⟩ : Shape).Idx → EReal := fun i => xhatRow (zOf x0 x1 x2 x3 x4 (i 0)) x5 x6 (i 1)

/-- The mean squared reconstruction error of each row. -/
def Grec (x0 : (⟨2, ![8192, 1024]⟩ : Shape).Idx → EReal) (x1 : (⟨2, ![1024, 512]⟩ : Shape).Idx → EReal)
    (x2 : (⟨1, ![512]⟩ : Shape).Idx → EReal) (x3 : (⟨2, ![512, 64]⟩ : Shape).Idx → EReal) (x4 : (⟨1, ![64]⟩ : Shape).Idx → EReal)
    (x5 : (⟨2, ![64, 1024]⟩ : Shape).Idx → EReal) (x6 : (⟨1, ![1024]⟩ : Shape).Idx → EReal) :
    (⟨1, ![8192]⟩ : Shape).Idx → EReal :=
  fun i => recK (rowOf x0 (i 0)) (fun j => xhatRow (zOf x0 x1 x2 x3 x4 (i 0)) x5 x6 j)

/-- The survival logits. -/
def Gsurv (x0 : (⟨2, ![8192, 1024]⟩ : Shape).Idx → EReal) (x1 : (⟨2, ![1024, 512]⟩ : Shape).Idx → EReal)
    (x2 : (⟨1, ![512]⟩ : Shape).Idx → EReal) (x3 : (⟨2, ![512, 64]⟩ : Shape).Idx → EReal) (x4 : (⟨1, ![64]⟩ : Shape).Idx → EReal)
    (x7 : (⟨2, ![1088, 50]⟩ : Shape).Idx → EReal) (x8 : (⟨1, ![50]⟩ : Shape).Idx → EReal) :
    (⟨2, ![8192, 50]⟩ : Shape).Idx → EReal :=
  fun i => survK (zOf x0 x1 x2 x3 x4 (i 0)) (rowOf x0 (i 0)) x7 x8 (i 1)

/-- The soft assignment. -/
def Gq (x0 : (⟨2, ![8192, 1024]⟩ : Shape).Idx → EReal) (x1 : (⟨2, ![1024, 512]⟩ : Shape).Idx → EReal)
    (x2 : (⟨1, ![512]⟩ : Shape).Idx → EReal) (x3 : (⟨2, ![512, 64]⟩ : Shape).Idx → EReal) (x4 : (⟨1, ![64]⟩ : Shape).Idx → EReal)
    (x9 : (⟨2, ![16, 64]⟩ : Shape).Idx → EReal) :
    (⟨2, ![8192, 16]⟩ : Shape).Idx → EReal := fun i => qK (zOf x0 x1 x2 x3 x4 (i 0)) x9 (i 1)

/-- The two zero arrays. -/
def Gzero2 : (⟨2, ![8192, 64]⟩ : Shape).Idx → EReal := fun _ => cZero
def Gzero1 : (⟨1, ![8192]⟩ : Shape).Idx → EReal := fun _ => cZero

end Cert.Results

end
-- ==== Proof.KFinal.lean ====
/-
  What each result array of the fused forward pass holds after the run: row r of each is the row-wise function of
  Spec.lean of row r of the input. Point t of the grid writes rows 1024·t … 1024·t + 1023; the eight points' blocks
  cover each array.
-/
import proofs.«152418_g16879221473979_cont_7to1_943_28_alg».proof.Proof.Gen.KernelIdeal.Frame
import proofs.«152418_g16879221473979_cont_7to1_943_28_alg».proof.Proof.KBlocks
import proofs.«152418_g16879221473979_cont_7to1_943_28_alg».proof.Proof.KIdx
import proofs.«152418_g16879221473979_cont_7to1_943_28_alg».proof.Proof.Results
import Idealize.ShloMosaic.Lib.Pipeline.Value
import Idealize.ShloMosaic.Lib.ValueLayout
import Idealize.ShloMosaic.Lib.Tactic

set_option maxRecDepth 16384

noncomputable section

namespace Cert.KFinal

open Cert.KernelIdeal Cert.KernelIdeal.Gen Idealize.ShloMosaic Idealize.ShloMosaic.TcCoe Idealize.SL.Sem
open Idealize.ShloMosaic.ValueIdx
open Idealize.ShloMosaic.Pipeline (Dat)
open Cert.KBlocks Cert.KRows

variable (m : (ℓ : Loc nD τ sig) → Buf (Elt Ideal) ℓ) (ρ : Dev nD → PrngReg)

/-! ## The arguments as arrays of extended reals -/

abbrev aX (c : Dev nD) : S8192x1024.Idx → EReal := m ((c : Thread nD τ).loc main_arg0)
abbrev aW1 (c : Dev nD) : S1024x512.Idx → EReal := m ((c : Thread nD τ).loc main_arg1)
abbrev aB1 (c : Dev nD) : S512.Idx → EReal := m ((c : Thread nD τ).loc main_arg2)
abbrev aW2 (c : Dev nD) : S512x64.Idx → EReal := m ((c : Thread nD τ).loc main_arg3)
abbrev aB2 (c : Dev nD) : S64.Idx → EReal := m ((c : Thread nD τ).loc main_arg4)
abbrev aDW (c : Dev nD) : S64x1024.Idx → EReal := m ((c : Thread nD τ).loc main_arg5)
abbrev aDB (c : Dev nD) : S1024.Idx → EReal := m ((c : Thread nD τ).loc main_arg6)
abbrev aSW (c : Dev nD) : S1088x50.Idx → EReal := m ((c : Thread nD τ).loc main_arg7)
abbrev aSB (c : Dev nD) : S50.Idx → EReal := m ((c : Thread nD τ).loc main_arg8)
abbrev aCEN (c : Dev nD) : S16x64.Idx → EReal := m ((c : Thread nD τ).loc main_arg9)

/-- The mean squared error as a one-column array: what the fifth window's array holds. -/
abbrev Grec1 (c : Dev nD) : S8192x1.Idx → EReal :=
  fun i => Cert.Results.Grec (aX m c) (aW1 m c) (aB1 m c) (aW2 m c) (aB2 m c) (aDW m c) (aDB m c) (ix1 (i 0))

/-! ## The one-row operands and the two pieces of the survival matrix -/

theorem rowVec_b1 (c : Dev nD) : rowVec (V m c main_call0_v0 : S1x512.Idx → EReal) = aB1 m c := by
  rw [V_b1]
  funext i
  exact (inDim_b_1b_apply (aB1 m c) bcast_S512_S1x512_1 (i 0)).trans (congrArg (aB1 m c) (eq_ix1 i).symm)

theorem rowVec_b2 (c : Dev nD) : rowVec (V m c main_call0_v1 : S1x64.Idx → EReal) = aB2 m c := by
  rw [V_b2]
  funext i
  exact (inDim_b_1b_apply (aB2 m c) bcast_S64_S1x64_1 (i 0)).trans (congrArg (aB2 m c) (eq_ix1 i).symm)

theorem rowVec_db (c : Dev nD) : rowVec (V m c main_call0_v2 : S1x1024.Idx → EReal) = aDB m c := by
  rw [V_db]
  funext i
  exact (inDim_b_1b_apply (aDB m c) bcast_S1024_S1x1024_1 (i 0)).trans (congrArg (aDB m c) (eq_ix1 i).symm)

theorem sb_apply (c : Dev nD) (t : Fin cfg0.N) : rowVec (iblk m c 9 t : Vec Ideal S1x50 .f32) = aSB m c := by
  rw [wblk9, V_sb]
  funext i
  exact (inDim_b_1b_apply (aSB m c) bcast_S50_S1x50_1 (i 0)).trans (congrArg (aSB m c) (eq_ix1 i).symm)

theorem swz_apply (c : Dev nD) (t : Fin cfg0.N) (l : Fin 64) (q : Fin 50) :
    (iblk m c 7 t : Vec Ideal S64x50 .f32) (ix2 l q) = aSW m c (ix2 (⟨l.val, by have := l.isLt; omega⟩ : Fin 1088) q) := by
  rw [wblk7, V_swz]
  exact slice2_axis0_apply 0 (aSW m c) slices_S1088x50_S64x50_0_0 l q _ (by simp)

theorem swx_apply (c : Dev nD) (t : Fin cfg0.N) (i : Fin 1024) (q : Fin 50) :
    (iblk m c 8 t : Vec Ideal S1024x50 .f32) (ix2 i q) = aSW m c (ix2 (⟨64 + i.val, by have := i.isLt; omega⟩ : Fin 1088) q) := by
  rw [wblk8, V_swx]
  exact slice2_axis0_apply 64 (aSW m c) slices_S1088x50_S1024x50_64_0 i q _ rfl

/-! ## The whole-array operands at a point -/

theorem w1_eq (c : Dev nD) (t : Fin cfg0.N) : (iblk m c 1 t : Vec Ideal S1024x512 .f32) = aW1 m c := (wblk1 m c t).trans (V_main_arg1 m c)
theorem w2_eq (c : Dev nD) (t : Fin cfg0.N) : (iblk m c 3 t : Vec Ideal S512x64 .f32) = aW2 m c := (wblk3 m c t).trans (V_main_arg3 m c)
theorem dw_eq (c : Dev nD) (t : Fin cfg0.N) : (iblk m c 5 t : Vec Ideal S64x1024 .f32) = aDW m c := (wblk5 m c t).trans (V_main_arg5 m c)
theorem cen_eq (c : Dev nD) (t : Fin cfg0.N) : (iblk m c 10 t : Vec Ideal S16x64 .f32) = aCEN m c := (wblk10 m c t).trans (V_main_arg9 m c)
theorem b1_eq (c : Dev nD) (t : Fin cfg0.N) : rowVec (iblk m c 2 t : Vec Ideal S1x512 .f32) = aB1 m c := by
  rw [wblk2]; exact rowVec_b1 m c
theorem b2_eq (c : Dev nD) (t : Fin cfg0.N) : rowVec (iblk m c 4 t : Vec Ideal S1x64 .f32) = aB2 m c := by
  rw [wblk4]; exact rowVec_b2 m c
theorem db_eq (c : Dev nD) (t : Fin cfg0.N) : rowVec (iblk m c 6 t : Vec Ideal S1x1024 .f32) = aDB m c := by
  rw [wblk6]; exact rowVec_db m c

/-! ## Window 11: the code -/

theorem mem_blk11 (t : Fin cfg0.N) (i : S8192x64.Idx) :
    i ∈ ((cfg0.win 11).blk t).view.set ↔ ∀ a : Fin 2, win0_11.index t a * S1024x64.size a ≤ (i a).val ∧ (i a).val < win0_11.index t a * S1024x64.size a + S1024x64.size a := by
  show i ∈ ((View.whole main_v0_0).slice (win0_11.rect t)).set ↔ _
  rw [View.set_slice_whole, Rect.mem_set_unit]
  exact Iff.rfl

/-- Every index of the array is in the block of the point that owns its row. -/
theorem cover11 (i : S8192x64.Idx) : ∃ t : Fin cfg0.N, (cfg0.win 11).flush t = true ∧ i ∈ ((cfg0.win 11).blk t).view.set := by
  have hN : cfg0.N = 8 := N_0
  have h0 : (i 0).val < 8192 := (i 0).isLt
  have h1 : (i 1).val < 64 := (i 1).isLt
  have ht : (i 0).val / 1024 < cfg0.N := by rw [hN]; omega
  obtain ⟨e0, e1⟩ := idx11 ⟨(i 0).val / 1024, ht⟩
  refine ⟨⟨(i 0).val / 1024, ht⟩, flush0_11 _, ?_⟩
  rw [mem_blk11]
  intro a
  match a with
  | ⟨0, _⟩ =>
    show win0_11.index ⟨(i 0).val / 1024, ht⟩ (0 : Fin 2) * 1024 ≤ (i 0).val ∧ (i 0).val < win0_11.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_11.index ⟨(i 0).val / 1024, ht⟩ (1 : Fin 2) * 64 ≤ (i 1).val ∧ (i 1).val < win0_11.index ⟨(i 0).val / 1024, ht⟩ (1 : Fin 2) * 64 + 64
    rw [e1]
    omega

/-- What point t writes back is block t of the array-wide function. -/
theorem flushed11_eq (c : Dev nD) (t : Fin cfg0.N) :
    (dats m 0 c).flushed 11 t = ((cfg0.win 11).blk t).view.read (Elt Ideal) (Cert.Results.Gz (aX m c) (aW1 m c) (aB1 m c) (aW2 m c) (aB2 m c)) := by
  show (cfg0.win 11).cut (grid0.coords t) ((dats m 0 c).after 11 t) = _
  rw [after0_11]
  unfold out0_11
  rw [View.canon_unit_zero hz]
  simp only [View.ld_unit_zero (S := S1024x1024) hz, View.ld_unit_zero (S := S1024x512) hz, View.ld_unit_zero (S := S1x512) hz, View.ld_unit_zero (S := S512x64) hz, View.ld_unit_zero (S := S1x64) hz]
  obtain ⟨e0, e1⟩ := idx11 t
  funext j
  rw [View.read_apply]
  refine (Cert.KIdx.pay3_idx (iblk m c 0 t) (iblk m c 1 t) (iblk m c 2 t) (iblk m c 3 t) (iblk m c 4 t) j).trans ?_
  have hr : ((((cfg0.win 11).blk t).view.emb j) 0).val = t.val * 1024 + (j 0).val := by
    show win0_11.index t (0 : Fin 2) * 1024 + 1 * (j 0).val = _
    rw [e0]; omega
  have h1 : (((cfg0.win 11).blk t).view.emb j) 1 = j 1 := Fin.ext (by
    show win0_11.index t (1 : Fin 2) * 64 + 1 * (j 1).val = (j 1).val
    rw [e1]; omega)
  have hx : rowOf (iblk m c 0 t : Vec Ideal S1024x1024 .f32) (j 0) = Cert.Results.rowOf (aX m c) ((((cfg0.win 11).blk t).view.emb j) 0) :=
    funext fun i => xblk_apply m c t (j 0) i _ hr
  dsimp only [Cert.KIdx.zR]
  rw [hx, wblk1, wblk2, wblk3, wblk4, V_main_arg1, V_main_arg3, rowVec_b1, rowVec_b2]
  show _ = (Cert.Results.Gz (aX m c) (aW1 m c) (aB1 m c) (aW2 m c) (aB2 m c)) (((cfg0.win 11).blk t).view.emb j)
  rw [← h1]
  rfl

/-- So the array ends holding it. -/
theorem final11 (c : Dev nD) : (dats m 0 c).arrAt 11 cfg0.N = (Cert.Results.Gz (aX m c) (aW1 m c) (aB1 m c) (aW2 m c) (aB2 m c)) :=
  (dats m 0 c).arrAt_eq_of_cover 11 (Cert.Results.Gz (aX m c) (aW1 m c) (aB1 m c) (aW2 m c) (aB2 m c)) (fun t _ => flushed11_eq m c t) cover11

/-! ## Window 12: the soft assignment -/

theorem mem_blk12 (t : Fin cfg0.N) (i : S8192x16.Idx) :
    i ∈ ((cfg0.win 12).blk t).view.set ↔ ∀ a : Fin 2, win0_12.index t a * S1024x16.size a ≤ (i a).val ∧ (i a).val < win0_12.index t a * S1024x16.size a + S1024x16.size a := by
  show i ∈ ((View.whole main_v0_6).slice (win0_12.rect t)).set ↔ _
  rw [View.set_slice_whole, Rect.mem_set_unit]
  exact Iff.rfl

/-- Every index of the array is in the block of the point that owns its row. -/
theorem cover12 (i : S8192x16.Idx) : ∃ t : Fin cfg0.N, (cfg0.win 12).flush t = true ∧ i ∈ ((cfg0.win 12).blk t).view.set := by
  have hN : cfg0.N = 8 := N_0
  have h0 : (i 0).val < 8192 := (i 0).isLt
  have h1 : (i 1).val < 16 := (i 1).isLt
  have ht : (i 0).val / 1024 < cfg0.N := by rw [hN]; omega
  obtain ⟨e0, e1⟩ := idx12 ⟨(i 0).val / 1024, ht⟩
  refine ⟨⟨(i 0).val / 1024, ht⟩, flush0_12 _, ?_⟩
  rw [mem_blk12]
  intro a
  match a with
  | ⟨0, _⟩ =>
    show win0_12.index ⟨(i 0).val / 1024, ht⟩ (0 : Fin 2) * 1024 ≤ (i 0).val ∧ (i 0).val < win0_12.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_12.index ⟨(i 0).val / 1024, ht⟩ (1 : Fin 2) * 16 ≤ (i 1).val ∧ (i 1).val < win0_12.index ⟨(i 0).val / 1024, ht⟩ (1 : Fin 2) * 16 + 16
    rw [e1]
    omega

/-- What point t writes back is block t of the array-wide function. -/
theorem flushed12_eq (c : Dev nD) (t : Fin cfg0.N) :
    (dats m 0 c).flushed 12 t = ((cfg0.win 12).blk t).view.read (Elt Ideal) (Cert.Results.Gq (aX m c) (aW1 m c) (aB1 m c) (aW2 m c) (aB2 m c) (aCEN m c)) := by
  show (cfg0.win 12).cut (grid0.coords t) ((dats m 0 c).after 12 t) = _
  rw [after0_12]
  unfold out0_12
  rw [View.canon_unit_zero hz]
  simp only [View.ld_unit_zero (S := S1024x1024) hz, View.ld_unit_zero (S := S1024x512) hz, View.ld_unit_zero (S := S1x512) hz, View.ld_unit_zero (S := S512x64) hz, View.ld_unit_zero (S := S1x64) hz, View.ld_unit_zero (S := S16x64) hz]
  obtain ⟨e0, e1⟩ := idx12 t
  funext j
  rw [View.read_apply]
  have hr : ((((cfg0.win 12).blk t).view.emb j) 0).val = t.val * 1024 + (j 0).val := by
    show win0_12.index t (0 : Fin 2) * 1024 + 1 * (j 0).val = _
    rw [e0]; omega
  have h1 : (((cfg0.win 12).blk t).view.emb j) 1 = j 1 := Fin.ext (by
    show win0_12.index t (1 : Fin 2) * 16 + 1 * (j 1).val = (j 1).val
    rw [e1]; omega)
  have hx : rowOf (iblk m c 0 t : Vec Ideal S1024x1024 .f32) (j 0) = Cert.Results.rowOf (aX m c) ((((cfg0.win 12).blk t).view.emb j) 0) :=
    funext fun i => xblk_apply m c t (j 0) i _ hr
  refine (Cert.KIdx.q_named (iblk m c 0 t) (iblk m c 1 t) (iblk m c 2 t) (iblk m c 3 t) (iblk m c 4 t) (iblk m c 10 t) j hx (w1_eq m c t) (b1_eq m c t) (w2_eq m c t) (b2_eq m c t) (cen_eq m c t)).trans ?_
  show _ = (Cert.Results.Gq (aX m c) (aW1 m c) (aB1 m c) (aW2 m c) (aB2 m c) (aCEN m c)) (((cfg0.win 12).blk t).view.emb j)
  rw [← h1]
  rfl

/-- So the array ends holding it. -/
theorem final12 (c : Dev nD) : (dats m 0 c).arrAt 12 cfg0.N = (Cert.Results.Gq (aX m c) (aW1 m c) (aB1 m c) (aW2 m c) (aB2 m c) (aCEN m c)) :=
  (dats m 0 c).arrAt_eq_of_cover 12 (Cert.Results.Gq (aX m c) (aW1 m c) (aB1 m c) (aW2 m c) (aB2 m c) (aCEN m c)) (fun t _ => flushed12_eq m c t) cover12

/-! ## Window 13: the survival logits -/

theorem mem_blk13 (t : Fin cfg0.N) (i : S8192x50.Idx) :
    i ∈ ((cfg0.win 13).blk t).view.set ↔ ∀ a : Fin 2, win0_13.index t a * S1024x50.size a ≤ (i a).val ∧ (i a).val < win0_13.index t a * S1024x50.size a + S1024x50.size a := by
  show i ∈ ((View.whole main_v0_7).slice (win0_13.rect t)).set ↔ _
  rw [View.set_slice_whole, Rect.mem_set_unit]
  exact Iff.rfl

/-- Every index of the array is in the block of the point that owns its row. -/
theorem cover13 (i : S8192x50.Idx) : ∃ t : Fin cfg0.N, (cfg0.win 13).flush t = true ∧ i ∈ ((cfg0.win 13).blk t).view.set := by
  have hN : cfg0.N = 8 := N_0
  have h0 : (i 0).val < 8192 := (i 0).isLt
  have h1 : (i 1).val < 50 := (i 1).isLt
  have ht : (i 0).val / 1024 < cfg0.N := by rw [hN]; omega
  obtain ⟨e0, e1⟩ := idx13 ⟨(i 0).val / 1024, ht⟩
  refine ⟨⟨(i 0).val / 1024, ht⟩, flush0_13 _, ?_⟩
  rw [mem_blk13]
  intro a
  match a with
  | ⟨0, _⟩ =>
    show win0_13.index ⟨(i 0).val / 1024, ht⟩ (0 : Fin 2) * 1024 ≤ (i 0).val ∧ (i 0).val < win0_13.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_13.index ⟨(i 0).val / 1024, ht⟩ (1 : Fin 2) * 50 ≤ (i 1).val ∧ (i 1).val < win0_13.index ⟨(i 0).val / 1024, ht⟩ (1 : Fin 2) * 50 + 50
    rw [e1]
    omega

/-- What point t writes back is block t of the array-wide function. -/
theorem flushed13_eq (c : Dev nD) (t : Fin cfg0.N) :
    (dats m 0 c).flushed 13 t = ((cfg0.win 13).blk t).view.read (Elt Ideal) (Cert.Results.Gsurv (aX m c) (aW1 m c) (aB1 m c) (aW2 m c) (aB2 m c) (aSW m c) (aSB m c)) := by
  show (cfg0.win 13).cut (grid0.coords t) ((dats m 0 c).after 13 t) = _
  rw [after0_13]
  unfold out0_13
  rw [View.canon_unit_zero hz]
  simp only [View.ld_unit_zero (S := S1024x1024) hz, View.ld_unit_zero (S := S1024x512) hz, View.ld_unit_zero (S := S1x512) hz, View.ld_unit_zero (S := S512x64) hz, View.ld_unit_zero (S := S1x64) hz, View.ld_unit_zero (S := S64x50) hz, View.ld_unit_zero (S := S1024x50) hz, View.ld_unit_zero (S := S1x50) hz]
  obtain ⟨e0, e1⟩ := idx13 t
  funext j
  rw [View.read_apply]
  have hr : ((((cfg0.win 13).blk t).view.emb j) 0).val = t.val * 1024 + (j 0).val := by
    show win0_13.index t (0 : Fin 2) * 1024 + 1 * (j 0).val = _
    rw [e0]; omega
  have h1 : (((cfg0.win 13).blk t).view.emb j) 1 = j 1 := Fin.ext (by
    show win0_13.index t (1 : Fin 2) * 50 + 1 * (j 1).val = (j 1).val
    rw [e1]; omega)
  have hx : rowOf (iblk m c 0 t : Vec Ideal S1024x1024 .f32) (j 0) = Cert.Results.rowOf (aX m c) ((((cfg0.win 13).blk t).view.emb j) 0) :=
    funext fun i => xblk_apply m c t (j 0) i _ hr
  refine (Cert.KIdx.surv_named (iblk m c 0 t) (iblk m c 1 t) (iblk m c 2 t) (iblk m c 3 t) (iblk m c 4 t) (iblk m c 7 t) (iblk m c 8 t) (iblk m c 9 t) (aSW m c) (aSB m c) (swz_apply m c t) (swx_apply m c t) (sb_apply m c t) j hx (w1_eq m c t) (b1_eq m c t) (w2_eq m c t) (b2_eq m c t)).trans ?_
  show _ = (Cert.Results.Gsurv (aX m c) (aW1 m c) (aB1 m c) (aW2 m c) (aB2 m c) (aSW m c) (aSB m c)) (((cfg0.win 13).blk t).view.emb j)
  rw [← h1]
  rfl

/-- So the array ends holding it. -/
theorem final13 (c : Dev nD) : (dats m 0 c).arrAt 13 cfg0.N = (Cert.Results.Gsurv (aX m c) (aW1 m c) (aB1 m c) (aW2 m c) (aB2 m c) (aSW m c) (aSB m c)) :=
  (dats m 0 c).arrAt_eq_of_cover 13 (Cert.Results.Gsurv (aX m c) (aW1 m c) (aB1 m c) (aW2 m c) (aB2 m c) (aSW m c) (aSB m c)) (fun t _ => flushed13_eq m c t) cover13

/-! ## Window 14: the reconstruction -/

theorem mem_blk14 (t : Fin cfg0.N) (i : S8192x1024.Idx) :
    i ∈ ((cfg0.win 14).blk t).view.set ↔ ∀ a : Fin 2, win0_14.index t a * S1024x1024.size a ≤ (i a).val ∧ (i a).val < win0_14.index t a * S1024x1024.size a + S1024x1024.size a := by
  show i ∈ ((View.whole main_v0_4).slice (win0_14.rect t)).set ↔ _
  rw [View.set_slice_whole, Rect.mem_set_unit]
  exact Iff.rfl

/-- Every index of the array is in the block of the point that owns its row. -/
theorem cover14 (i : S8192x1024.Idx) : ∃ t : Fin cfg0.N, (cfg0.win 14).flush t = true ∧ i ∈ ((cfg0.win 14).blk t).view.set := by
  have hN : cfg0.N = 8 := N_0
  have h0 : (i 0).val < 8192 := (i 0).isLt
  have h1 : (i 1).val < 1024 := (i 1).isLt
  have ht : (i 0).val / 1024 < cfg0.N := by rw [hN]; omega
  obtain ⟨e0, e1⟩ := idx14 ⟨(i 0).val / 1024, ht⟩
  refine ⟨⟨(i 0).val / 1024, ht⟩, flush0_14 _, ?_⟩
  rw [mem_blk14]
  intro a
  match a with
  | ⟨0, _⟩ =>
    show win0_14.index ⟨(i 0).val / 1024, ht⟩ (0 : Fin 2) * 1024 ≤ (i 0).val ∧ (i 0).val < win0_14.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_14.index ⟨(i 0).val / 1024, ht⟩ (1 : Fin 2) * 1024 ≤ (i 1).val ∧ (i 1).val < win0_14.index ⟨(i 0).val / 1024, ht⟩ (1 : Fin 2) * 1024 + 1024
    rw [e1]
    omega

/-- What point t writes back is block t of the array-wide function. -/
theorem flushed14_eq (c : Dev nD) (t : Fin cfg0.N) :
    (dats m 0 c).flushed 14 t = ((cfg0.win 14).blk t).view.read (Elt Ideal) (Cert.Results.Gxhat (aX m c) (aW1 m c) (aB1 m c) (aW2 m c) (aB2 m c) (aDW m c) (aDB m c)) := by
  show (cfg0.win 14).cut (grid0.coords t) ((dats m 0 c).after 14 t) = _
  rw [after0_14]
  unfold out0_14
  rw [View.canon_unit_zero hz]
  simp only [View.ld_unit_zero (S := S1024x1024) hz, View.ld_unit_zero (S := S1024x512) hz, View.ld_unit_zero (S := S1x512) hz, View.ld_unit_zero (S := S512x64) hz, View.ld_unit_zero (S := S1x64) hz, View.ld_unit_zero (S := S64x1024) hz, View.ld_unit_zero (S := S1x1024) hz]
  obtain ⟨e0, e1⟩ := idx14 t
  funext j
  rw [View.read_apply]
  have hr : ((((cfg0.win 14).blk t).view.emb j) 0).val = t.val * 1024 + (j 0).val := by
    show win0_14.index t (0 : Fin 2) * 1024 + 1 * (j 0).val = _
    rw [e0]; omega
  have h1 : (((cfg0.win 14).blk t).view.emb j) 1 = j 1 := Fin.ext (by
    show win0_14.index t (1 : Fin 2) * 1024 + 1 * (j 1).val = (j 1).val
    rw [e1]; omega)
  have hx : rowOf (iblk m c 0 t : Vec Ideal S1024x1024 .f32) (j 0) = Cert.Results.rowOf (aX m c) ((((cfg0.win 14).blk t).view.emb j) 0) :=
    funext fun i => xblk_apply m c t (j 0) i _ hr
  refine (Cert.KIdx.xhat_named (iblk m c 0 t) (iblk m c 1 t) (iblk m c 2 t) (iblk m c 3 t) (iblk m c 4 t) (iblk m c 5 t) (iblk m c 6 t) j hx (w1_eq m c t) (b1_eq m c t) (w2_eq m c t) (b2_eq m c t) (dw_eq m c t) (db_eq m c t)).trans ?_
  show _ = (Cert.Results.Gxhat (aX m c) (aW1 m c) (aB1 m c) (aW2 m c) (aB2 m c) (aDW m c) (aDB m c)) (((cfg0.win 14).blk t).view.emb j)
  rw [← h1]
  rfl

/-- So the array ends holding it. -/
theorem final14 (c : Dev nD) : (dats m 0 c).arrAt 14 cfg0.N = (Cert.Results.Gxhat (aX m c) (aW1 m c) (aB1 m c) (aW2 m c) (aB2 m c) (aDW m c) (aDB m c)) :=
  (dats m 0 c).arrAt_eq_of_cover 14 (Cert.Results.Gxhat (aX m c) (aW1 m c) (aB1 m c) (aW2 m c) (aB2 m c) (aDW m c) (aDB m c)) (fun t _ => flushed14_eq m c t) cover14

/-! ## Window 15: the mean squared error -/

theorem mem_blk15 (t : Fin cfg0.N) (i : S8192x1.Idx) :
    i ∈ ((cfg0.win 15).blk t).view.set ↔ ∀ a : Fin 2, win0_15.index t a * S1024x1.size a ≤ (i a).val ∧ (i a).val < win0_15.index t a * S1024x1.size a + S1024x1.size a := by
  show i ∈ ((View.whole main_call0_v6_4).slice (win0_15.rect t)).set ↔ _
  rw [View.set_slice_whole, Rect.mem_set_unit]
  exact Iff.rfl

/-- Every index of the array is in the block of the point that owns its row. -/
theorem cover15 (i : S8192x1.Idx) : ∃ t : Fin cfg0.N, (cfg0.win 15).flush t = true ∧ i ∈ ((cfg0.win 15).blk t).view.set := by
  have hN : cfg0.N = 8 := N_0
  have h0 : (i 0).val < 8192 := (i 0).isLt
  have h1 : (i 1).val < 1 := (i 1).isLt
  have ht : (i 0).val / 1024 < cfg0.N := by rw [hN]; omega
  obtain ⟨e0, e1⟩ := idx15 ⟨(i 0).val / 1024, ht⟩
  refine ⟨⟨(i 0).val / 1024, ht⟩, flush0_15 _, ?_⟩
  rw [mem_blk15]
  intro a
  match a with
  | ⟨0, _⟩ =>
    show win0_15.index ⟨(i 0).val / 1024, ht⟩ (0 : Fin 2) * 1024 ≤ (i 0).val ∧ (i 0).val < win0_15.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_15.index ⟨(i 0).val / 1024, ht⟩ (1 : Fin 2) * 1 ≤ (i 1).val ∧ (i 1).val < win0_15.index ⟨(i 0).val / 1024, ht⟩ (1 : Fin 2) * 1 + 1
    rw [e1]
    omega

/-- What point t writes back is block t of the array-wide function. -/
theorem flushed15_eq (c : Dev nD) (t : Fin cfg0.N) :
    (dats m 0 c).flushed 15 t = ((cfg0.win 15).blk t).view.read (Elt Ideal) (Grec1 m c) := by
  show (cfg0.win 15).cut (grid0.coords t) ((dats m 0 c).after 15 t) = _
  rw [after0_15]
  unfold out0_15
  rw [View.canon_unit_zero hz]
  simp only [View.ld_unit_zero (S := S1024x1024) hz, View.ld_unit_zero (S := S1024x512) hz, View.ld_unit_zero (S := S1x512) hz, View.ld_unit_zero (S := S512x64) hz, View.ld_unit_zero (S := S1x64) hz, View.ld_unit_zero (S := S64x1024) hz, View.ld_unit_zero (S := S1x1024) hz]
  obtain ⟨e0, e1⟩ := idx15 t
  funext j
  rw [View.read_apply]
  have hr : ((((cfg0.win 15).blk t).view.emb j) 0).val = t.val * 1024 + (j 0).val := by
    show win0_15.index t (0 : Fin 2) * 1024 + 1 * (j 0).val = _
    rw [e0]; omega
  have h1 : (((cfg0.win 15).blk t).view.emb j) 1 = j 1 := Fin.ext (by
    show win0_15.index t (1 : Fin 2) * 1 + 1 * (j 1).val = (j 1).val
    rw [e1]; omega)
  have hx : rowOf (iblk m c 0 t : Vec Ideal S1024x1024 .f32) (j 0) = Cert.Results.rowOf (aX m c) ((((cfg0.win 15).blk t).view.emb j) 0) :=
    funext fun i => xblk_apply m c t (j 0) i _ hr
  refine (Cert.KIdx.rec_named (iblk m c 0 t) (iblk m c 1 t) (iblk m c 2 t) (iblk m c 3 t) (iblk m c 4 t) (iblk m c 5 t) (iblk m c 6 t) j hx (w1_eq m c t) (b1_eq m c t) (w2_eq m c t) (b2_eq m c t) (dw_eq m c t) (db_eq m c t)).trans ?_
  show _ = (Grec1 m c) (((cfg0.win 15).blk t).view.emb j)
  rfl

/-- So the array ends holding it. -/
theorem final15 (c : Dev nD) : (dats m 0 c).arrAt 15 cfg0.N = (Grec1 m c) :=
  (dats m 0 c).arrAt_eq_of_cover 15 (Grec1 m c) (fun t _ => flushed15_eq m c t) cover15

end Cert.KFinal

end
-- ==== Proof.KTail.lean ====
/-
  The kernel program's host operations after its region, read as arrays.

  After the region the program writes two arrays of zeros (a scalar zero repeated over `[8192, 64]` and over `[8192]`)
  and reshapes the region's `[8192, 1]` column of per-row errors into the vector `[8192]`: entry `i` of the vector is
  entry `(i, 0)` of the column.
-/
import proofs.«152418_g16879221473979_cont_7to1_943_28_alg».proof.Proof.Gen.KernelIdeal.Frame
import proofs.«152418_g16879221473979_cont_7to1_943_28_alg».proof.Proof.Results
import proofs.«152418_g16879221473979_cont_7to1_943_28_alg».proof.Proof.LibRows
import Idealize.ShloMosaic.Lib.Pipeline.Value
import Idealize.ShloMosaic.Lib.ValueIdx
import Idealize.ShloMosaic.Lib.Tactic
import Idealize.ShloMosaic.PureOps.Ideal

noncomputable section

namespace Cert.KTail

open Cert.KernelIdeal Cert.KernelIdeal.Gen Idealize.ShloMosaic Idealize.ShloMosaic.TcCoe Idealize.SL.Sem
open Idealize.ShloMosaic.ValueIdx
open Idealize.ShloMosaic.StableHlo

variable (m : (ℓ : Loc nD τ sig) → Buf (Elt Ideal) ℓ)

/-- The first array of zeros. -/
theorem tail_zero2 (c : Dev nD) :
    (Pipeline.afterTail₀ cfgs (dats m) 0 (V0 m) [hostOps1] c main_v0_1 : S8192x64.Idx → EReal) = Cert.Results.Gzero2 := by
  unfold Pipeline.afterTail₀
  show StableHlo.after hostOps1 _ (Proc.devRef .tc main_v0_1) = _
  after_results
  funext (i : S8192x64.Idx)
  show broadcastInDim S8192x64 ![] bcast_S_S8192x64 (constant (F := Ideal) S_ .f32 0x00000000#32) i = Cert.Spec.cZero
  rw [Cert.LibRows.scalarInDim_apply]
  rfl

/-- The second array of zeros. -/
theorem tail_zero1 (c : Dev nD) :
    (Pipeline.afterTail₀ cfgs (dats m) 0 (V0 m) [hostOps1] c main_v0_3 : S8192.Idx → EReal) = Cert.Results.Gzero1 := by
  unfold Pipeline.afterTail₀
  show StableHlo.after hostOps1 _ (Proc.devRef .tc main_v0_3) = _
  after_results
  funext (i : S8192.Idx)
  show broadcastInDim S8192 ![] bcast_S_S8192 (constant (F := Ideal) S_ .f32 0x00000000#32) i = Cert.Spec.cZero
  rw [Cert.LibRows.scalarInDim_apply]
  rfl

/-- The error vector: the region's column of per-row errors, entry `(i, 0)` at `i`. -/
theorem tail_rec (c : Dev nD) (G15 : S8192x1.Idx → EReal) (h15 : (dats m 0 c).arrAt 15 cfg0.N = G15) :
    (Pipeline.afterTail₀ cfgs (dats m) 0 (V0 m) [hostOps1] c main_v0_5 : S8192.Idx → EReal)
      = fun i => G15 (ix2 (i 0) (0 : Fin 1)) := by
  unfold Pipeline.afterTail₀
  show StableHlo.after hostOps1 _ (Proc.devRef .tc main_v0_5) = _
  after_results
  have hA : (Pipeline.withArrays spec0 c (V0 m c) (fun w => (dats m 0 c).arrAt w cfg0.N) (Proc.devRef .tc main_call0_v6_4)
      : S8192x1.Idx → EReal) = G15 :=
    (Pipeline.withArrays_arr spec0 launch0.win.arr_inj c _ _ 15).trans h15
  funext (i : S8192.Idx)
  refine (congrArg (fun A : S8192x1.Idx → EReal => shapeCast S8192 A shapeCasts_S8192x1_S8192 i) hA).trans ?_
  refine shapeCast_apply G15 shapeCasts_S8192x1_S8192 i (ix2 (i 0) (0 : Fin 1)) ?_
  rw [Shape.rowMajor_val_two, Shape.rowMajor_val_one]
  show (i 0).val * 1 + 0 = (i 0).val
  omega

end Cert.KTail

end
-- ==== Proof.KRun.lean ====
/-
  The fused forward pass, run: every weakly fair execution terminates with the nine results at their array-wide
  functions of the ten arguments (Results.lean) and the arguments unchanged. Five results are the arrays the eight
  grid points write; two are zero arrays the later host lines fill; the mean squared error is the fifth window's one-column
  array made a vector; the centres are returned as given.
-/
import proofs.«152418_g16879221473979_cont_7to1_943_28_alg».proof.Proof.Gen.KernelIdeal.Frame
import proofs.«152418_g16879221473979_cont_7to1_943_28_alg».proof.Proof.KFinal
import proofs.«152418_g16879221473979_cont_7to1_943_28_alg».proof.Proof.KTail
import proofs.«152418_g16879221473979_cont_7to1_943_28_alg».proof.Proof.Results
import Idealize.ShloMosaic.Lib.Pipeline.Value

set_option maxRecDepth 16384

noncomputable section

namespace Cert.KRun

open Cert.KernelIdeal Cert.KernelIdeal.Gen Idealize.ShloMosaic Idealize.ShloMosaic.TcCoe Idealize.SL.Sem
open Idealize.ShloMosaic.ValueIdx
open Idealize.ShloMosaic.Pipeline (Dat)
open Cert.KFinal

variable (m : (ℓ : Loc nD τ sig) → Buf (Elt Ideal) ℓ) (ρ : Dev nD → PrngReg)

/-- The one-column array of mean squared errors made a vector is the vector of mean squared errors. -/
theorem rec_vec (c : Dev nD) : (fun i : S8192.Idx => Grec1 m c (ix2 (i 0) (0 : Fin 1)))
    = Cert.Results.Grec (aX m c) (aW1 m c) (aB1 m c) (aW2 m c) (aB2 m c) (aDW m c) (aDB m c) :=
  funext fun i => congrArg (Cert.Results.Grec (aX m c) (aW1 m c) (aB1 m c) (aW2 m c) (aB2 m c) (aDW m c) (aDB m c)) (eq_ix1 i).symm

theorem run : θ_run defs (onTc (τ := τ) (main (F := Ideal))) ⟨m, fun _ => 0, ρ⟩ fun r => ∀ c : Dev nD,
      r.2.mem ((c.tc : Thread nD τ).loc main_v0_0) = Cert.Results.Gz (aX m c) (aW1 m c) (aB1 m c) (aW2 m c) (aB2 m c)
      ∧ r.2.mem ((c.tc : Thread nD τ).loc main_v0_1) = Cert.Results.Gzero2
      ∧ r.2.mem ((c.tc : Thread nD τ).loc main_v0_1) = Cert.Results.Gzero2
      ∧ r.2.mem ((c.tc : Thread nD τ).loc main_v0_3) = Cert.Results.Gzero1
      ∧ r.2.mem ((c.tc : Thread nD τ).loc main_v0_4) = Cert.Results.Gxhat (aX m c) (aW1 m c) (aB1 m c) (aW2 m c) (aB2 m c) (aDW m c) (aDB m c)
      ∧ r.2.mem ((c.tc : Thread nD τ).loc main_v0_5) = Cert.Results.Grec (aX m c) (aW1 m c) (aB1 m c) (aW2 m c) (aB2 m c) (aDW m c) (aDB m c)
      ∧ r.2.mem ((c.tc : Thread nD τ).loc main_v0_6) = Cert.Results.Gq (aX m c) (aW1 m c) (aB1 m c) (aW2 m c) (aB2 m c) (aCEN m c)
      ∧ r.2.mem ((c.tc : Thread nD τ).loc main_v0_7) = Cert.Results.Gsurv (aX m c) (aW1 m c) (aB1 m c) (aW2 m c) (aB2 m c) (aSW m c) (aSB m c)
      ∧ r.2.mem ((c.tc : Thread nD τ).loc main_arg9) = m ((c.tc : Thread nD τ).loc main_arg9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨
      ((h c).1 11).trans (final11 m c),
      ((h c).2 main_v0_1 (Pipeline.mem_restRefs_of main_v0_1 (by decide) (by decide))).trans (Cert.KTail.tail_zero2 m c),
      ((h c).2 main_v0_1 (Pipeline.mem_restRefs_of main_v0_1 (by decide) (by decide))).trans (Cert.KTail.tail_zero2 m c),
      ((h c).2 main_v0_3 (Pipeline.mem_restRefs_of main_v0_3 (by decide) (by decide))).trans (Cert.KTail.tail_zero1 m c),
      ((h c).1 14).trans (final14 m c),
      ((h c).2 main_v0_5 (Pipeline.mem_restRefs_of main_v0_5 (by decide) (by decide))).trans
        ((Cert.KTail.tail_rec m c (Grec1 m c) (final15 m c)).trans (rec_vec m c)),
      ((h c).1 12).trans (final12 m c),
      ((h c).1 13).trans (final13 m c),
      ((h c).1 10).trans (((dats m 0 c).arrAt_in 10 rfl _).trans ((A_eq m c 10).trans (V_main_arg9 m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 10).trans (((dats m 0 c).arrAt_in 10 rfl _).trans ((A_eq m c 10).trans (V_main_arg9 m c)))⟩)
    (run_main m ρ)

end Cert.KRun

end
-- ==== Proof.RefRows.lean ====
/-
  The reference program's results, one row of the batch at a time, as the row-wise functions of the specification.

  Every operation of the reference is read at an entry `(r, q)` of its result. A matrix product reads row `r` of its left
  operand against column `q` of its right one; a bias reads its entry `q`; a sum along the columns reads row `r`; a row
  maximum is the fold of `max` along row `r`; the joined array `[z, x]` reads `z` below column 64 and `x` from there on.
  So entry `(r, ·)` of each result depends on row `r` of the input alone, and is the corresponding function of that row:
  the code, the reconstruction, the mean squared error (as a quotient by 1024), the survival logits (as one product of
  the joined row) and the soft assignment (with the row maximum of the shifted logits taken once more).
-/
import proofs.«152418_g16879221473979_cont_7to1_943_28_alg».proof.Proof.Gen.ReferenceIdeal.Read
import proofs.«152418_g16879221473979_cont_7to1_943_28_alg».proof.Proof.Spec
import proofs.«152418_g16879221473979_cont_7to1_943_28_alg».proof.Proof.LibRows
import proofs.«152418_g16879221473979_cont_7to1_943_28_alg».proof.Proof.LibCols
import Idealize.ShloMosaic.Lib.ValueIdx
import Idealize.ShloMosaic.Lib.Pipeline.Value
import Idealize.ShloMosaic.Lib.ValueLayout
import Idealize.ShloMosaic.PureOps.Ideal.Laws

noncomputable section

namespace Cert.RefRows

open Cert.ReferenceIdeal Cert.ReferenceIdeal.Gen Cert.ReferenceIdeal.Read Idealize.ShloMosaic Idealize.ShloMosaic.ValueIdx

/-- An array of extended reals of a given shape. -/
abbrev Arr (s : Shape) : Type := (⟨s, .f32⟩ : BufTy).Contents (Elt Ideal)

/-! ## The index maps of the products and sums, at an entry given by its coordinates -/

section Indices
variable {n0 n1 : Nat}

theorem lidx_v0 (r : Fin 8192) (k : Fin 512) (i : Fin 1024) : lidx_main_v0 (ix2 r k) i = ix2 r i :=
  funext fun a => Fin.ext (by match a with | ⟨0, _⟩ => rfl | ⟨1, _⟩ => rfl)
theorem ridx_v0 (r : Fin 8192) (k : Fin 512) (i : Fin 1024) : ridx_main_v0 (ix2 r k) i = ix2 i k :=
  funext fun a => Fin.ext (by match a with | ⟨0, _⟩ => rfl | ⟨1, _⟩ => rfl)
theorem idx_v2 (r : Fin 8192) (k : Fin 512) : idx_main_v1 (idx_main_v2 (ix2 r k)) = ix1 k :=
  funext fun a => Fin.ext (by match a with | ⟨0, _⟩ => rfl)
theorem lidx_v5 (r : Fin 8192) (l : Fin 64) (k : Fin 512) : lidx_main_v5 (ix2 r l) k = ix2 r k :=
  funext fun a => Fin.ext (by match a with | ⟨0, _⟩ => rfl | ⟨1, _⟩ => rfl)
theorem ridx_v5 (r : Fin 8192) (l : Fin 64) (k : Fin 512) : ridx_main_v5 (ix2 r l) k = ix2 k l :=
  funext fun a => Fin.ext (by match a with | ⟨0, _⟩ => rfl | ⟨1, _⟩ => rfl)
theorem idx_v7 (r : Fin 8192) (l : Fin 64) : idx_main_v6 (idx_main_v7 (ix2 r l)) = ix1 l :=
  funext fun a => Fin.ext (by match a with | ⟨0, _⟩ => rfl)
theorem lidx_v43 (r : Fin 8192) (j : Fin 1024) (l : Fin 64) : lidx_main_v43 (ix2 r j) l = ix2 r l :=
  funext fun a => Fin.ext (by match a with | ⟨0, _⟩ => rfl | ⟨1, _⟩ => rfl)
theorem ridx_v43 (r : Fin 8192) (j : Fin 1024) (l : Fin 64) : ridx_main_v43 (ix2 r j) l = ix2 l j :=
  funext fun a => Fin.ext (by match a with | ⟨0, _⟩ => rfl | ⟨1, _⟩ => rfl)
theorem idx_v45 (r : Fin 8192) (j : Fin 1024) : idx_main_v44 (idx_main_v45 (ix2 r j)) = ix1 j :=
  funext fun a => Fin.ext (by match a with | ⟨0, _⟩ => rfl)

end Indices

/-! ## The encoder: hidden layer and code -/

/-- Entry `(r, k)` of the rectified hidden layer is hidden unit `k` of row `r`. -/
theorem hid_row (x0 : Arr S8192x1024) (x1 : Arr S1024x512) (x2 : Arr S512) (r : Fin 8192) (k : Fin 512) :
    val_main_v4 (F := Ideal) x0 x1 x2 (ix2 r k) = Cert.Spec.hidRow (fun i : Fin 1024 => x0 (ix2 r i)) x1 x2 k := by
  rw [val_main_v4_apply, val_main_v3_apply, val_main_v0_apply, val_main_v2_apply, val_main_v1_apply,
    val_main_call0_v0_apply, val_main_call0_cst_apply]
  simp only [lidx_v0, ridx_v0, idx_v2, Ideal.addf_def, Ideal.maximumf_def, Ideal.ofBits_def]
  rfl

/-- Entry `(r, l)` of the code is entry `l` of row `r`'s code. -/
theorem z_row (x0 : Arr S8192x1024) (x1 : Arr S1024x512) (x2 : Arr S512) (x3 : Arr S512x64) (x4 : Arr S64)
    (r : Fin 8192) (l : Fin 64) :
    val_main_v8 (F := Ideal) x0 x1 x2 x3 x4 (ix2 r l) = Cert.Spec.zRow (fun i : Fin 1024 => x0 (ix2 r i)) x1 x2 x3 x4 l := by
  rw [val_main_v8_apply, val_main_v5_apply, val_main_v7_apply, val_main_v6_apply]
  simp only [lidx_v5, ridx_v5, idx_v7, hid_row, Ideal.addf_def]
  rfl

/-! ## The decoder: reconstruction -/

/-- Entry `(r, j)` of the reconstruction is entry `j` of the reconstruction of row `r`'s code. -/
theorem xhat_row (x0 : Arr S8192x1024) (x1 : Arr S1024x512) (x2 : Arr S512) (x3 : Arr S512x64) (x4 : Arr S64)
    (x5 : Arr S64x1024) (x6 : Arr S1024) (r : Fin 8192) (j : Fin 1024) :
    val_main_v46 (F := Ideal) x0 x1 x2 x3 x4 x5 x6 (ix2 r j)
      = Cert.Spec.xhatRow (fun l => Cert.Spec.zRow (fun i : Fin 1024 => x0 (ix2 r i)) x1 x2 x3 x4 l) x5 x6 j := by
  rw [val_main_v46_apply, val_main_v43_apply, val_main_v45_apply, val_main_v44_apply]
  simp only [lidx_v43, ridx_v43, idx_v45, z_row, Ideal.addf_def]
  rfl

/-! ## The mean squared reconstruction error -/

theorem idx_v49 (r : Fin 8192) (j : Fin 1024) : idx_main_v49 (ix1 r) j = ix2 r j :=
  funext fun a => Fin.ext (by match a with | ⟨0, _⟩ => rfl | ⟨1, _⟩ => rfl)

/-- Entry `r` of the error is the mean squared error of row `r`'s reconstruction, as a quotient by 1024. -/
theorem rec_row (x0 : Arr S8192x1024) (x1 : Arr S1024x512) (x2 : Arr S512) (x3 : Arr S512x64) (x4 : Arr S64)
    (x5 : Arr S64x1024) (x6 : Arr S1024) (r : Fin 8192) :
    val_main_v51 (F := Ideal) x0 x1 x2 x3 x4 x5 x6 (ix1 r)
      = Cert.Spec.recR (fun i : Fin 1024 => x0 (ix2 r i))
          (fun j => Cert.Spec.xhatRow (fun l => Cert.Spec.zRow (fun i : Fin 1024 => x0 (ix2 r i)) x1 x2 x3 x4 l) x5 x6 j) := by
  rw [val_main_v51_apply, val_main_v49_apply, val_main_v50_apply, val_main_cst_9_apply, val_main_cst_8_apply]
  simp only [idx_v49, val_main_v48_apply, val_main_v47_apply, xhat_row, Ideal.mulf_def, Ideal.subf_def, Ideal.hostDivf_def,
    Ideal.ofBits_def]
  rfl

/-! ## The survival logits -/

/-- Entry `(r, k)` of the joined array `[z, x]` is entry `k` of row `r`'s joined row. -/
theorem cat_row (x0 : Arr S8192x1024) (x1 : Arr S1024x512) (x2 : Arr S512) (x3 : Arr S512x64) (x4 : Arr S64)
    (r : Fin 8192) (k : Fin 1088) :
    val_main_v38 (F := Ideal) x0 x1 x2 x3 x4 (ix2 r k)
      = Cert.Spec.catRow (fun l => Cert.Spec.zRow (fun i : Fin 1024 => x0 (ix2 r i)) x1 x2 x3 x4 l)
          (fun i : Fin 1024 => x0 (ix2 r i)) k := by
  unfold val_main_v38 Cert.Spec.catRow
  split
  · next hk =>
    refine (concatenate_pair_apply_left 1 (val_main_v8 (F := Ideal) x0 x1 x2 x3 x4) x0
      concatenates_S8192x64_S8192x1024_S8192x1088_d1 (ix2 r k) rfl (ix2 r ⟨k.val, hk⟩) fun bb => ?_).trans (z_row x0 x1 x2 x3 x4 r _)
    match bb with
    | ⟨0, _⟩ => rfl
    | ⟨1, _⟩ => rfl
  · next hk =>
    refine concatenate_pair_apply_right 1 (val_main_v8 (F := Ideal) x0 x1 x2 x3 x4) x0
      concatenates_S8192x64_S8192x1024_S8192x1088_d1 (ix2 r k) rfl rfl
      (ix2 r ⟨k.val - 64, by have := k.isLt; omega⟩) (fun bb hb => ?_) ?_
    · match bb with
      | ⟨0, _⟩ => rfl
      | ⟨1, _⟩ => exact absurd rfl hb
    · show k.val - 64 + 64 = k.val
      omega

theorem lidx_v39 (r : Fin 8192) (j : Fin 50) (k : Fin 1088) : lidx_main_v39 (ix2 r j) k = ix2 r k :=
  funext fun a => Fin.ext (by match a with | ⟨0, _⟩ => rfl | ⟨1, _⟩ => rfl)
theorem ridx_v39 (r : Fin 8192) (j : Fin 50) (k : Fin 1088) : ridx_main_v39 (ix2 r j) k = ix2 k j :=
  funext fun a => Fin.ext (by match a with | ⟨0, _⟩ => rfl | ⟨1, _⟩ => rfl)
theorem idx_v41 (r : Fin 8192) (j : Fin 50) : idx_main_v40 (idx_main_v41 (ix2 r j)) = ix1 j :=
  funext fun a => Fin.ext (by match a with | ⟨0, _⟩ => rfl)

/-- Entry `(r, j)` of the survival logits is logit `j` of row `r`, as one product of the joined row. -/
theorem surv_row (x0 : Arr S8192x1024) (x1 : Arr S1024x512) (x2 : Arr S512) (x3 : Arr S512x64) (x4 : Arr S64)
    (x7 : Arr S1088x50) (x8 : Arr S50) (r : Fin 8192) (j : Fin 50) :
    val_main_v42 (F := Ideal) x0 x1 x2 x3 x4 x7 x8 (ix2 r j)
      = Cert.Spec.survR (fun l => Cert.Spec.zRow (fun i : Fin 1024 => x0 (ix2 r i)) x1 x2 x3 x4 l)
          (fun i : Fin 1024 => x0 (ix2 r i)) x7 x8 j := by
  rw [val_main_v42_apply, val_main_v39_apply, val_main_v41_apply, val_main_v40_apply]
  simp only [lidx_v39, ridx_v39, idx_v41, cat_row, Ideal.addf_def]
  rfl

/-! ## The soft assignment -/

theorem idx_zc (r : Fin 8192) (k : Fin 16) (l : Fin 64) :
    idx_main_v11 (idx_main_v13 (idx_main_v17 (ix2 r k) l)) = ix2 r l :=
  funext fun a => Fin.ext (by match a with | ⟨0, _⟩ => rfl | ⟨1, _⟩ => rfl)
theorem idx_cc (r : Fin 8192) (k : Fin 16) (l : Fin 64) :
    idx_main_v12 (idx_main_v14 (idx_main_v17 (ix2 r k) l)) = ix2 k l :=
  funext fun a => Fin.ext (by match a with | ⟨0, _⟩ => rfl | ⟨1, _⟩ => rfl)

/-- Entry `(r, k)` of the logits is the Student-t logit of the squared distance of row `r`'s code to centre `k`. -/
theorem logit_row (x0 : Arr S8192x1024) (x1 : Arr S1024x512) (x2 : Arr S512) (x3 : Arr S512x64) (x4 : Arr S64)
    (x9 : Arr S16x64) (r : Fin 8192) (k : Fin 16) :
    val_main_v22 (F := Ideal) x0 x1 x2 x3 x4 x9 (ix2 r k)
      = Cert.Spec.logit (Cert.Spec.dist2R (fun l => Cert.Spec.zRow (fun i : Fin 1024 => x0 (ix2 r i)) x1 x2 x3 x4 l) x9 k) := by
  rw [val_main_v22_apply, val_main_v21_apply, val_main_cst_3_apply, val_main_v20_apply, val_main_v19_apply,
    val_main_v18_apply, val_main_cst_2_apply, val_main_v17_apply, val_main_cst_1_apply]
  simp only [val_main_v16_apply, val_main_v15_apply, val_main_v13_apply, val_main_v11_apply, val_main_v14_apply,
    val_main_v12_apply, idx_zc, idx_cc, z_row, Ideal.mulf_def, Ideal.subf_def, Ideal.hostDivf_def,
    Ideal.hostUnary_log1p_def, Ideal.ofBits_def]
  rfl

/-- A row index of the `[8192]` result with column `k` put back is `(r, k)`. -/
theorem lift_row (h : S8192x16.Reduces [1] S8192) (r : Fin 8192) (k : Fin (S8192x16.size 1)) :
    h.lift (ix1 r) k = ix2 r (⟨k.val, k.isLt⟩ : Fin 16) := by
  funext c; apply Fin.ext
  fin_cases c <;> rfl

/-- The host's maximum along the 16 columns, started at the word for minus infinity, at row `r`: the fold of `max`
    along that row. -/
theorem max_row (x : S8192x16.Idx → Ideal .f32) (init : S_.Idx → Ideal .f32)
    (hi : init (Shape.Idx.first h_S_) = Cert.Spec.cNegInf) (r : Fin 8192) :
    Host.reduce (FloatOps.maximumf (F := Ideal) (φ := .f32)) x init reducesTo_S8192x16_S8192_d1 h_S_ (ix1 r)
      = Cert.Spec.rowMax fun k : Fin 16 => x (ix2 r k) := by
  have h : S8192x16.Reduces [1] S8192 := by decide
  rw [Host.reduce_eq_fold_single (FloatOps.maximumf (F := Ideal) (φ := .f32)) x init reducesTo_S8192x16_S8192_d1 h h_S_, hi]
  have hf : (x ∘ h.lift (ix1 r)) = fun k : Fin 16 => x (ix2 r k) := funext fun k => congrArg x (lift_row h r k)
  exact congrArg (fun f => Finset.fold max Cert.Spec.cNegInf f (Finset.univ : Finset (Fin 16))) hf

theorem idx_v25 (r : Fin 8192) (k : Fin 16) : idx_main_v24 (idx_main_v25 (ix2 r k)) = ix1 r :=
  funext fun a => Fin.ext (by match a with | ⟨0, _⟩ => rfl)
theorem idx_v31 (r : Fin 8192) (k : Fin 16) : idx_main_v30 (idx_main_v31 (ix2 r k)) = ix1 r :=
  funext fun a => Fin.ext (by match a with | ⟨0, _⟩ => rfl)
theorem idx_v36 (r : Fin 8192) (k : Fin 16) : idx_main_v35 (idx_main_v36 (ix2 r k)) = ix1 r :=
  funext fun a => Fin.ext (by match a with | ⟨0, _⟩ => rfl)
theorem idx_v34 (r : Fin 8192) (k : Fin 16) : idx_main_v34 (ix1 r) k = ix2 r k :=
  funext fun a => Fin.ext (by match a with | ⟨0, _⟩ => rfl | ⟨1, _⟩ => rfl)

/-- Entry `(r, k)` of the shifted logits: the logit less the maximum of row `r`'s logits. -/
theorem shifted_row (x0 : Arr S8192x1024) (x1 : Arr S1024x512) (x2 : Arr S512) (x3 : Arr S512x64) (x4 : Arr S64)
    (x9 : Arr S16x64) (r : Fin 8192) (k : Fin 16) :
    val_main_v26 (F := Ideal) x0 x1 x2 x3 x4 x9 (ix2 r k)
      = Cert.Spec.shifted (fun l => Cert.Spec.zRow (fun i : Fin 1024 => x0 (ix2 r i)) x1 x2 x3 x4 l) x9 k := by
  rw [val_main_v26_apply, val_main_v25_apply, val_main_v24_apply, idx_v25, logit_row]
  unfold val_main_v23
  rw [max_row (val_main_v22 (F := Ideal) x0 x1 x2 x3 x4 x9) (val_main_cst_4 (F := Ideal)) (val_main_cst_4_apply _) r]
  simp only [logit_row, Ideal.subf_def]
  rfl

/-- Entry `(r, k)` of the exponentials: of the shifted logit less the maximum (taken once more, from minus infinity) of
    row `r`'s shifted logits. -/
theorem exp_row (x0 : Arr S8192x1024) (x1 : Arr S1024x512) (x2 : Arr S512) (x3 : Arr S512x64) (x4 : Arr S64)
    (x9 : Arr S16x64) (r : Fin 8192) (k : Fin 16) :
    val_main_v33 (F := Ideal) x0 x1 x2 x3 x4 x9 (ix2 r k)
      = Ideal.exp (Cert.Spec.shifted (fun l => Cert.Spec.zRow (fun i : Fin 1024 => x0 (ix2 r i)) x1 x2 x3 x4 l) x9 k
          - max Cert.Spec.cNegInf (Cert.Spec.rowMax
              (Cert.Spec.shifted (fun l => Cert.Spec.zRow (fun i : Fin 1024 => x0 (ix2 r i)) x1 x2 x3 x4 l) x9))) := by
  rw [val_main_v33_apply, val_main_v32_apply, val_main_v31_apply, val_main_v30_apply, idx_v31, val_main_v29_apply,
    val_main_v28_apply, val_main_cst_6_apply, shifted_row]
  unfold val_main_v27
  rw [max_row (val_main_v26 (F := Ideal) x0 x1 x2 x3 x4 x9) (val_main_cst_5 (F := Ideal)) (val_main_cst_5_apply _) r]
  simp only [shifted_row, Ideal.subf_def, Ideal.maximumf_def, Ideal.hostUnary_exp_def, Ideal.ofBits_def]

/-- Entry `(r, k)` of the soft assignment is the assignment of row `r`'s code to centre `k`. -/
theorem q_row (x0 : Arr S8192x1024) (x1 : Arr S1024x512) (x2 : Arr S512) (x3 : Arr S512x64) (x4 : Arr S64)
    (x9 : Arr S16x64) (r : Fin 8192) (k : Fin 16) :
    val_main_v37 (F := Ideal) x0 x1 x2 x3 x4 x9 (ix2 r k)
      = Cert.Spec.qR (fun l => Cert.Spec.zRow (fun i : Fin 1024 => x0 (ix2 r i)) x1 x2 x3 x4 l) x9 k := by
  rw [val_main_v37_apply, val_main_v36_apply, val_main_v35_apply, idx_v36, val_main_v34_apply, val_main_cst_7_apply]
  simp only [idx_v34, exp_row, Ideal.hostDivf_def, Ideal.ofBits_def]
  rfl

/-! ## The three zero results -/

theorem zero_v9 (i : S8192x64.Idx) : val_main_v9 (F := Ideal) i = Cert.Spec.cZero := by
  rw [val_main_v9_apply, val_main_cst_apply]; rfl
theorem zero_v10 (i : S8192x64.Idx) : val_main_v10 (F := Ideal) i = Cert.Spec.cZero := by
  rw [val_main_v10_apply, val_main_cst_0_apply]; rfl
theorem zero_v52 (i : S8192.Idx) : val_main_v52 (F := Ideal) i = Cert.Spec.cZero := by
  rw [val_main_v52_apply, val_main_cst_10_apply]; rfl

end Cert.RefRows

end
-- ==== Proof.LibESum.lean ====
/-
  Finite sums of extended reals whose terms are all real numbers.

  EReal is not a ring: distributivity and cancellation fail at the infinities. When every
  term is the coercion of a real number the sum is the coercion of the real sum, and the laws of the
  reals apply. Two such laws are proved here:

  * sum_onehot4: a weighted sum against a combination of four indicator ("one-hot") rows collapses to
    the four selected entries: a sparse row of a matrix product is a four-point interpolation;
  * sum_split_delta: the sum of W f plus the sum of W (g - f) is the sum of W g.
-/
import Mathlib.Data.EReal.Operations
import Mathlib.Algebra.BigOperators.Ring.Finset
import Mathlib.Tactic.Ring
import Mathlib.Tactic.NormNum

namespace LibESum

open Finset

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are all real is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_sum]; exact Finset.sum_congr rfl h

/-- Four weighted indicator rows against a real-valued column: the sum over the whole index set is
    the four selected entries, each times its weight (in the order "entry times weight"). The four
    selected indices need not be distinct. -/
theorem sum_onehot4 {P : Type*} [Fintype P] [DecidableEq P]
    (w0 w1 w2 w3 : EReal) (r0 r1 r2 r3 : ℝ) (hw0 : w0 = (r0 : EReal)) (hw1 : w1 = (r1 : EReal))
    (hw2 : w2 = (r2 : EReal)) (hw3 : w3 = (r3 : EReal))
    (p0 p1 p2 p3 : P) (o0 o1 o2 o3 : P → EReal)
    (ho0 : ∀ p, o0 p = ((if p = p0 then 1 else 0 : ℝ) : EReal))
    (ho1 : ∀ p, o1 p = ((if p = p1 then 1 else 0 : ℝ) : EReal))
    (ho2 : ∀ p, o2 p = ((if p = p2 then 1 else 0 : ℝ) : EReal))
    (ho3 : ∀ p, o3 p = ((if p = p3 then 1 else 0 : ℝ) : EReal))
    (f : P → EReal) (g : P → ℝ) (hf : ∀ p, f p = (g p : EReal)) :
    ∑ p, (((w0 * o0 p + w1 * o1 p) + w2 * o2 p) + w3 * o3 p) * f p
      = ((f p0 * w0 + f p1 * w1) + f p2 * w2) + f p3 * w3 := by
  subst hw0 hw1 hw2 hw3
  have hterm : ∀ p ∈ (Finset.univ : Finset P),
      (((((r0 : ℝ) : EReal) * o0 p + (r1 : EReal) * o1 p) + (r2 : EReal) * o2 p) + (r3 : EReal) * o3 p) * f p
        = (((((r0 * (if p = p0 then 1 else 0) + r1 * (if p = p1 then 1 else 0))
            + r2 * (if p = p2 then 1 else 0)) + r3 * (if p = p3 then 1 else 0)) * g p : ℝ) : EReal) := by
    intro p _
    rw [ho0, ho1, ho2, ho3, hf]
    simp only [← EReal.coe_mul, ← EReal.coe_add]
  rw [sum_eq_coe _ _ _ hterm, hf, hf, hf, hf]
  simp only [← EReal.coe_mul, ← EReal.coe_add]
  congr 1
  simp only [add_mul, Finset.sum_add_distrib, mul_assoc, ite_mul, one_mul, zero_mul, mul_ite, mul_zero,
    Finset.sum_ite_eq', Finset.mem_univ, if_true]
  ring

/-- The sum of W f plus the sum of W (g - f) is the sum of W g when every entry is a real number. -/
theorem sum_split_delta {P : Type*} [Fintype P]
    (W f g : P → EReal) (Wr fr gr : P → ℝ) (hW : ∀ p, W p = (Wr p : EReal)) (hf : ∀ p, f p = (fr p : EReal))
    (hg : ∀ p, g p = (gr p : EReal)) :
    (∑ p, W p * f p) + (∑ p, W p * (g p - f p)) = ∑ p, W p * g p := by
  rw [sum_eq_coe _ _ (fun p => Wr p * fr p) (fun p _ => by rw [hW, hf, EReal.coe_mul]),
    sum_eq_coe _ _ (fun p => Wr p * (gr p - fr p)) (fun p _ => by rw [hW, hf, hg, ← EReal.coe_sub, EReal.coe_mul]),
    sum_eq_coe _ _ (fun p => Wr p * gr p) (fun p _ => by rw [hW, hg, EReal.coe_mul]),
    ← EReal.coe_add]
  congr 1
  rw [← Finset.sum_add_distrib]
  exact Finset.sum_congr rfl fun p _ => by ring

end LibESum
-- ==== Proof.Bridge.lean ====
/-
  The two spellings of one row's quantities agree on the extended reals.

  * The float words denote 0, 1, -1, 2, -∞, 2⁻¹⁰ and 1024.
  * The mean as a quotient by 1024 is the mean as a product with 2⁻¹⁰ (no finiteness is needed).
  * The product of the joined row `[z, A]` with a matrix is the sum of the two partial products.
  * The code of a real row under real weights is real.
  * For a real code and real centres the sum of squared differences is the expanded form (which is
    non-negative, so its clamp at zero is the identity); the logits are real; the maximum of finitely
    many reals is attained, so the shifted logits are non-positive with one of them zero, their maximum
    is zero, and taking it once more changes nothing: the two soft assignments coincide.
-/
import proofs.«152418_g16879221473979_cont_7to1_943_28_alg».proof.Proof.Spec
import proofs.«152418_g16879221473979_cont_7to1_943_28_alg».proof.Proof.LibESum
import Mathlib.Data.EReal.Operations
import Mathlib.Data.Finset.Fold
import Mathlib.Analysis.SpecialFunctions.Log.Basic
import Mathlib.Tactic

noncomputable section

namespace Cert.Bridge

open Idealize.ShloMosaic Idealize.ShloMosaic.ValueIdx Cert.Spec

/-! ## The float words -/
section Consts

theorem cZero_eq : cZero = 0 := by
  simp [cZero, Ideal.ofBits, Ideal.ieee]

theorem cOne_eq : cOne = 1 := by
  simp [cOne, Ideal.ofBits, Ideal.ieee, -EReal.coe_mul]; norm_num

theorem cNegOne_eq : cNegOne = ((-1 : ℝ) : EReal) := by
  simp [cNegOne, Ideal.ofBits, Ideal.ieee, -EReal.coe_mul]; norm_num

theorem cTwo_eq : cTwo = ((2 : ℝ) : EReal) := by
  simp [cTwo, Ideal.ofBits, Ideal.ieee, -EReal.coe_mul]; norm_num

theorem cNegInf_eq : cNegInf = ⊥ := by
  simp [cNegInf, Ideal.ofBits, Ideal.ieee]

theorem cInv1024_eq : cInv1024 = ((1 / 1024 : ℝ) : EReal) := by
  simp [cInv1024, Ideal.ofBits, Ideal.ieee, -EReal.coe_mul]; norm_num

theorem c1024_eq : c1024 = ((1024 : ℝ) : EReal) := by
  simp [c1024, Ideal.ofBits, Ideal.ieee, -EReal.coe_mul]; norm_num

end Consts

/-! ## The mean squared error -/

/-- The quotient by 1024 of a sum started at zero is the product of the sum with 2⁻¹⁰, at the infinities too. -/
theorem recR_eq_recK (A Xh : Fin 1024 → EReal) : recR A Xh = recK A Xh := by
  unfold recR recK
  rw [cZero_eq, c1024_eq, cInv1024_eq, zero_add, Ideal.div_coe (by norm_num : (1024 : ℝ) ≠ 0)]

/-! ## The survival logits -/

/-- An entry of the joined row in its first 64 places is the code's. -/
theorem catRow_castAdd (Z : Fin 64 → EReal) (A : Fin 1024 → EReal) (l : Fin 64) :
    catRow Z A (Fin.castAdd 1024 l) = Z l := by
  unfold catRow
  rw [dif_pos (show (Fin.castAdd 1024 l).val < 64 from l.isLt)]
  rfl

/-- An entry of the joined row in its last 1024 places is the input row's. -/
theorem catRow_natAdd (Z : Fin 64 → EReal) (A : Fin 1024 → EReal) (i : Fin 1024) :
    catRow Z A (Fin.natAdd 64 i) = A i := by
  unfold catRow
  rw [dif_neg (show ¬ (Fin.natAdd 64 i).val < 64 by simp)]
  congr 1
  ext
  simp

/-- The product of the joined row with the matrix splits at place 64 into the two partial products: a finite sum
    over `64 + 1024` places is the sum over the first 64 plus the sum over the last 1024. -/
theorem survR_eq_survK (Z : Fin 64 → EReal) (A : Fin 1024 → EReal) (sw : (⟨2, ![1088, 50]⟩ : Shape).Idx → EReal)
    (sb : (⟨1, ![50]⟩ : Shape).Idx → EReal) (j : Fin 50) : survR Z A sw sb j = survK Z A sw sb j := by
  unfold survR survK
  have h := Fin.sum_univ_add (a := 64) (b := 1024) (fun k : Fin 1088 => catRow Z A k * sw (ix2 k j))
  refine congrArg (· + sb (ix1 j)) (h.trans ?_)
  refine congrArg₂ (· + ·) ?_ ?_
  · refine Finset.sum_congr rfl fun l _ => ?_
    rw [catRow_castAdd]
    rfl
  · refine Finset.sum_congr rfl fun i _ => ?_
    rw [catRow_natAdd]
    rfl

/-! ## Real numbers among the extended reals -/

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is one of them. -/
theorem IsReal.max {x y : EReal} (hx : IsReal x) (hy : IsReal y) : IsReal (max x y) := by
  rcases le_total x y with h | h
  · rw [max_eq_right h]; exact hy
  · rw [max_eq_left h]; exact hx

/-- A finite sum of reals is real. -/
theorem IsReal.sum {ι : Type*} (s : Finset ι) (F : ι → EReal) (h : ∀ i ∈ s, IsReal (F i)) :
    IsReal (∑ i ∈ s, F i) :=
  Finset.sum_induction F IsReal (fun _ _ ha hb => IsReal.add ha hb) IsReal.zero h

/-- A hidden unit of a real row under real weights is real. -/
theorem hidRow_real (A : Fin 1024 → EReal) (w1 : (⟨2, ![1024, 512]⟩ : Shape).Idx → EReal)
    (b1 : (⟨1, ![512]⟩ : Shape).Idx → EReal) (hA : ∀ i, ∃ r : ℝ, A i = (r : EReal))
    (hw1 : ∀ i, ∃ r : ℝ, w1 i = (r : EReal)) (hb1 : ∀ i, ∃ r : ℝ, b1 i = (r : EReal)) (k : Fin 512) :
    ∃ r : ℝ, hidRow A w1 b1 k = (r : EReal) := by
  unfold hidRow
  rw [cZero_eq]
  exact IsReal.max (IsReal.add (IsReal.sum _ _ fun i _ => IsReal.mul (hA i) (hw1 _)) (hb1 _)) IsReal.zero

/-- The code of a real row under real weights is real. -/
theorem zRow_real (A : Fin 1024 → EReal) (w1 : (⟨2, ![1024, 512]⟩ : Shape).Idx → EReal)
    (b1 : (⟨1, ![512]⟩ : Shape).Idx → EReal) (w2 : (⟨2, ![512, 64]⟩ : Shape).Idx → EReal)
    (b2 : (⟨1, ![64]⟩ : Shape).Idx → EReal) (hA : ∀ i, ∃ r : ℝ, A i = (r : EReal))
    (hw1 : ∀ i, ∃ r : ℝ, w1 i = (r : EReal)) (hb1 : ∀ i, ∃ r : ℝ, b1 i = (r : EReal))
    (hw2 : ∀ i, ∃ r : ℝ, w2 i = (r : EReal)) (hb2 : ∀ i, ∃ r : ℝ, b2 i = (r : EReal)) (l : Fin 64) :
    ∃ r : ℝ, zRow A w1 b1 w2 b2 l = (r : EReal) := by
  unfold zRow
  exact IsReal.add (IsReal.sum _ _ fun k _ => IsReal.mul (hidRow_real A w1 b1 hA hw1 hb1 k) (hw2 _)) (hb2 _)

/-! ## The squared distances -/

/-- For reals, `∑ z² - 2 ∑ z c + ∑ c² = ∑ (z - c)²`. -/
theorem real_expand {n : ℕ} (z c : Fin n → ℝ) :
    (∑ l, z l * z l) - 2 * (∑ l, z l * c l) + (∑ l, c l * c l) = ∑ l, (z l - c l) * (z l - c l) := by
  rw [Finset.mul_sum, ← Finset.sum_sub_distrib, ← Finset.sum_add_distrib]
  exact Finset.sum_congr rfl fun l _ => by ring

/-- The sum of squared differences of a real code and a real centre, as a real number. -/
theorem dist2R_coe (Z : Fin 64 → EReal) (cen : (⟨2, ![16, 64]⟩ : Shape).Idx → EReal) (z : Fin 64 → ℝ)
    (c : (⟨2, ![16, 64]⟩ : Shape).Idx → ℝ) (hz : ∀ l, Z l = (z l : EReal)) (hc : ∀ i, cen i = (c i : EReal))
    (k : Fin 16) :
    dist2R Z cen k = ((∑ l : Fin 64, (z l - c (ix2 k l)) * (z l - c (ix2 k l)) : ℝ) : EReal) := by
  unfold dist2R
  rw [cZero_eq, zero_add]
  exact LibESum.sum_eq_coe _ _ _ fun l _ => by rw [hz, hc, ← EReal.coe_sub, ← EReal.coe_mul]

/-- The expanded form is the same real number: it is non-negative, so the clamp at zero is the identity. -/
theorem dist2K_coe (Z : Fin 64 → EReal) (cen : (⟨2, ![16, 64]⟩ : Shape).Idx → EReal) (z : Fin 64 → ℝ)
    (c : (⟨2, ![16, 64]⟩ : Shape).Idx → ℝ) (hz : ∀ l, Z l = (z l : EReal)) (hc : ∀ i, cen i = (c i : EReal))
    (k : Fin 16) :
    dist2K Z cen k = ((∑ l : Fin 64, (z l - c (ix2 k l)) * (z l - c (ix2 k l)) : ℝ) : EReal) := by
  unfold dist2K
  rw [cZero_eq, cTwo_eq,
    LibESum.sum_eq_coe _ _ (fun l => z l * z l) (fun l _ => by rw [hz, ← EReal.coe_mul]),
    LibESum.sum_eq_coe _ _ (fun l => z l * c (ix2 k l)) (fun l _ => by rw [hz, hc, ← EReal.coe_mul]),
    LibESum.sum_eq_coe _ _ (fun l => c (ix2 k l) * c (ix2 k l)) (fun l _ => by rw [hc, ← EReal.coe_mul]),
    ← EReal.coe_mul, ← EReal.coe_sub, ← EReal.coe_add, real_expand z (fun l => c (ix2 k l))]
  exact max_eq_left (EReal.coe_nonneg.mpr (Finset.sum_nonneg fun l _ => mul_self_nonneg _))

/-- The two spellings of the squared distance agree for a real code and real centres. -/
theorem dist2R_eq_dist2K (Z : Fin 64 → EReal) (cen : (⟨2, ![16, 64]⟩ : Shape).Idx → EReal)
    (hZ : ∀ l, ∃ r : ℝ, Z l = (r : EReal)) (hc : ∀ i, ∃ r : ℝ, cen i = (r : EReal)) (k : Fin 16) :
    dist2R Z cen k = dist2K Z cen k := by
  choose z hz using hZ
  choose c hcc using hc
  rw [dist2R_coe Z cen z c hz hcc, dist2K_coe Z cen z c hz hcc]

/-- The clamped squared distance of a real code to a real centre is a non-negative real. -/
theorem dist2K_real_nonneg (Z : Fin 64 → EReal) (cen : (⟨2, ![16, 64]⟩ : Shape).Idx → EReal)
    (hZ : ∀ l, ∃ r : ℝ, Z l = (r : EReal)) (hc : ∀ i, ∃ r : ℝ, cen i = (r : EReal)) (k : Fin 16) :
    ∃ r : ℝ, 0 ≤ r ∧ dist2K Z cen k = (r : EReal) := by
  choose z hz using hZ
  choose c hcc using hc
  exact ⟨_, Finset.sum_nonneg fun l _ => mul_self_nonneg _, dist2K_coe Z cen z c hz hcc k⟩

/-! ## The logits -/

/-- The logit of a non-negative real `d` is the real `-log (1 + d)`: the quotient by one is the number itself,
    and `1 + d` is positive, so its logarithm is real. -/
theorem logit_coe (r : ℝ) (hr : 0 ≤ r) : logit (r : EReal) = ((-1 * Real.log (1 + r * (1 / 1)) : ℝ) : EReal) := by
  unfold logit
  rw [cNegOne_eq, cOne_eq, ← EReal.coe_one, Ideal.div_coe one_ne_zero, ← EReal.coe_mul]
  unfold Ideal.log1p
  rw [← EReal.coe_one, ← EReal.coe_add, Ideal.log_coe, if_neg (by simp only [one_div_one, mul_one, not_le]; linarith),
    ← EReal.coe_mul]

theorem logit_real (d : EReal) (hd : ∃ r : ℝ, 0 ≤ r ∧ d = (r : EReal)) : ∃ r : ℝ, logit d = (r : EReal) := by
  obtain ⟨r, hr, rfl⟩ := hd
  exact ⟨_, logit_coe r hr⟩

/-! ## The maximum of sixteen reals -/

/-- Every entry is below the folded maximum. -/
theorem le_rowMax (f : Fin 16 → EReal) (k : Fin 16) : f k ≤ rowMax f :=
  (Finset.le_fold_max _).mpr (Or.inr ⟨k, Finset.mem_univ k, le_rfl⟩)

/-- The folded maximum of sixteen reals is attained: it is not minus infinity (one entry is real), and a
    fold of `max` from minus infinity that is above minus infinity is below some entry. -/
theorem rowMax_attained (f : Fin 16 → EReal) (hf : ∀ k, ∃ r : ℝ, f k = (r : EReal)) :
    ∃ k0, rowMax f = f k0 := by
  have h := (Finset.le_fold_max (s := (Finset.univ : Finset (Fin 16))) (b := cNegInf) (f := f)
    (c := rowMax f)).mp le_rfl
  rcases h with h | ⟨k0, _, hk0⟩
  · exfalso
    obtain ⟨r, hr⟩ := hf 0
    have h1 : f 0 ≤ ⊥ := by
      have := (le_rowMax f 0).trans h
      rwa [cNegInf_eq] at this
    rw [hr] at h1
    exact (EReal.coe_ne_bot r) (le_bot_iff.mp h1)
  · exact ⟨k0, le_antisymm hk0 (le_rowMax f k0)⟩

/-- With the maximum of sixteen reals taken from each of them, the maximum of what is left is zero. -/
theorem rowMax_shift_zero (f : Fin 16 → EReal) (hf : ∀ k, ∃ r : ℝ, f k = (r : EReal)) :
    rowMax (fun k => f k - rowMax f) = 0 := by
  obtain ⟨k0, hk0⟩ := rowMax_attained f hf
  obtain ⟨m, hm⟩ := hf k0
  have hM : rowMax f = (m : EReal) := hk0.trans hm
  have hle : ∀ k, f k - rowMax f ≤ 0 := by
    intro k
    obtain ⟨a, ha⟩ := hf k
    have h1 : f k ≤ rowMax f := le_rowMax f k
    rw [hM, ha] at h1 ⊢
    rw [← EReal.coe_sub, ← EReal.coe_zero, EReal.coe_le_coe_iff]
    exact sub_nonpos.mpr (EReal.coe_le_coe_iff.mp h1)
  have h0 : f k0 - rowMax f = 0 := by
    rw [hM, hm, ← EReal.coe_sub, sub_self, EReal.coe_zero]
  apply le_antisymm
  · unfold rowMax
    exact (Finset.fold_max_le _).mpr ⟨by rw [cNegInf_eq]; exact bot_le, fun k _ => hle k⟩
  · have := le_rowMax (fun k => f k - rowMax f) k0
    simpa only [h0] using this

/-! ## The soft assignment -/

/-- For a real code and real centres the two spellings of the soft assignment coincide: the squared distances
    agree, the logits are real, the shifted logits have maximum zero, and subtracting zero and adding zero
    change nothing. -/
theorem qR_eq_qK (Z : Fin 64 → EReal) (cen : (⟨2, ![16, 64]⟩ : Shape).Idx → EReal)
    (hZ : ∀ l, ∃ r : ℝ, Z l = (r : EReal)) (hc : ∀ i, ∃ r : ℝ, cen i = (r : EReal)) (k : Fin 16) :
    qR Z cen k = qK Z cen k := by
  have hL : ∀ k', ∃ r : ℝ, logit (dist2K Z cen k') = (r : EReal) := fun k' =>
    logit_real _ (dist2K_real_nonneg Z cen hZ hc k')
  have hS : shifted Z cen = fun k' => logit (dist2K Z cen k') - rowMax fun k'' => logit (dist2K Z cen k'') := by
    funext k'
    unfold shifted
    simp only [dist2R_eq_dist2K Z cen hZ hc]
  have h0 : max cNegInf (rowMax (shifted Z cen)) = 0 := by
    rw [hS, rowMax_shift_zero _ hL, cNegInf_eq]
    exact max_eq_right bot_le
  unfold qR qK
  rw [h0, cZero_eq, zero_add]
  simp only [sub_zero, hS]

end Cert.Bridge

end
-- ==== Proof.RefFinal.lean ====
/-
  The reference program's results as whole arrays.

  Entry `(r, q)` of each result of the reference is the row-wise function of row `r` of the input, in the reference's
  spellings: the mean as a quotient by 1024, the survival logits as one product of the joined row, the squared
  distances as sums of squared differences, the soft assignment with the row maximum taken twice. Those spellings
  agree with the other ones (the mean as a product with 2⁻¹⁰, two partial products, the expanded and clamped squared
  distances, the plain softmax) — the soft assignment's when all the numbers involved are real. So each result, as
  a whole array, is the corresponding whole-array function of the argument arrays.
-/
import proofs.«152418_g16879221473979_cont_7to1_943_28_alg».proof.Proof.RefRows
import proofs.«152418_g16879221473979_cont_7to1_943_28_alg».proof.Proof.Bridge
import proofs.«152418_g16879221473979_cont_7to1_943_28_alg».proof.Proof.Results
import proofs.«152418_g16879221473979_cont_7to1_943_28_alg».proof.Proof.Gen.ReferenceIdeal.Read

noncomputable section

namespace Cert.RefFinal

open Cert.ReferenceIdeal Cert.ReferenceIdeal.Gen Cert.ReferenceIdeal.Read Idealize.ShloMosaic Idealize.ShloMosaic.ValueIdx
open Cert.RefRows

/-- The code: entry `(r, l)` is entry `l` of row `r`'s code. -/
theorem ref_z (x0 : Arr S8192x1024) (x1 : Arr S1024x512) (x2 : Arr S512) (x3 : Arr S512x64) (x4 : Arr S64) :
    val_main_v8 (F := Ideal) x0 x1 x2 x3 x4 = Cert.Results.Gz x0 x1 x2 x3 x4 := by
  funext i
  obtain ⟨r, q, rfl⟩ : ∃ r q, i = ix2 r q := ⟨i 0, i 1, eq_ix2 i⟩
  rw [z_row]
  rfl

/-- The reconstruction: entry `(r, j)` is entry `j` of the reconstruction of row `r`'s code. -/
theorem ref_xhat (x0 : Arr S8192x1024) (x1 : Arr S1024x512) (x2 : Arr S512) (x3 : Arr S512x64) (x4 : Arr S64)
    (x5 : Arr S64x1024) (x6 : Arr S1024) :
    val_main_v46 (F := Ideal) x0 x1 x2 x3 x4 x5 x6 = Cert.Results.Gxhat x0 x1 x2 x3 x4 x5 x6 := by
  funext i
  obtain ⟨r, q, rfl⟩ : ∃ r q, i = ix2 r q := ⟨i 0, i 1, eq_ix2 i⟩
  rw [xhat_row]
  rfl

/-- The mean squared error: the quotient by 1024 is the product with 2⁻¹⁰. -/
theorem ref_rec (x0 : Arr S8192x1024) (x1 : Arr S1024x512) (x2 : Arr S512) (x3 : Arr S512x64) (x4 : Arr S64)
    (x5 : Arr S64x1024) (x6 : Arr S1024) :
    val_main_v51 (F := Ideal) x0 x1 x2 x3 x4 x5 x6 = Cert.Results.Grec x0 x1 x2 x3 x4 x5 x6 := by
  funext i
  obtain ⟨r, rfl⟩ : ∃ r, i = ix1 r := ⟨i 0, eq_ix1 i⟩
  rw [rec_row, Cert.Bridge.recR_eq_recK]
  rfl

/-- The survival logits: the product of the joined row is the sum of the two partial products. -/
theorem ref_surv (x0 : Arr S8192x1024) (x1 : Arr S1024x512) (x2 : Arr S512) (x3 : Arr S512x64) (x4 : Arr S64)
    (x7 : Arr S1088x50) (x8 : Arr S50) :
    val_main_v42 (F := Ideal) x0 x1 x2 x3 x4 x7 x8 = Cert.Results.Gsurv x0 x1 x2 x3 x4 x7 x8 := by
  funext i
  obtain ⟨r, q, rfl⟩ : ∃ r q, i = ix2 r q := ⟨i 0, i 1, eq_ix2 i⟩
  rw [surv_row, Cert.Bridge.survR_eq_survK]
  rfl

/-- The soft assignment, for real arguments: row `r`'s code is then real, and the two spellings of the soft
    assignment of a real code to real centres coincide. -/
theorem ref_q (x0 : Arr S8192x1024) (x1 : Arr S1024x512) (x2 : Arr S512) (x3 : Arr S512x64) (x4 : Arr S64)
    (x9 : Arr S16x64) (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (h4 : ∀ i, ∃ r : ℝ, x4 i = (r : EReal)) (h9 : ∀ i, ∃ r : ℝ, x9 i = (r : EReal)) :
    val_main_v37 (F := Ideal) x0 x1 x2 x3 x4 x9 = Cert.Results.Gq x0 x1 x2 x3 x4 x9 := by
  funext i
  obtain ⟨r, q, rfl⟩ : ∃ r q, i = ix2 r q := ⟨i 0, i 1, eq_ix2 i⟩
  rw [q_row]
  exact Cert.Bridge.qR_eq_qK _ x9
    (fun l => Cert.Bridge.zRow_real (fun i : Fin 1024 => x0 (ix2 r i)) x1 x2 x3 x4 (fun i => h0 (ix2 r i)) h1 h2 h3 h4 l) h9 q

/-- The three zero results. -/
theorem ref_zero9 : val_main_v9 (F := Ideal) = Cert.Results.Gzero2 := funext fun i => zero_v9 i

theorem ref_zero10 : val_main_v10 (F := Ideal) = Cert.Results.Gzero2 := funext fun i => zero_v10 i

theorem ref_zero52 : val_main_v52 (F := Ideal) = Cert.Results.Gzero1 := funext fun i => zero_v52 i

end Cert.RefFinal

end
-- ==== Proof.FinPre.lean ====
/-
  The precondition read back: every input entry is a real number.

  The precondition computes, for each of the ten input arrays, whether every entry `x` has `|x| < +∞`, and joins the ten
  answers by `and`. If the joint answer is 1 then each of the ten is 1, so every comparison `|x| < +∞` came out 1. On the
  extended reals `|x|` is `max x (-x)` and the word `0x7F800000` is `+∞`; `max x (-x) < +∞` excludes both infinities, and an
  extended real that is neither infinity is (the image of) a real number.
-/
import proofs.«152418_g16879221473979_cont_7to1_943_28_alg».proof.Pre_finite_inputs
import proofs.«152418_g16879221473979_cont_7to1_943_28_alg».proof.Proof.Gen.Pre_finite_inputs
import Idealize.ShloMosaic.PureOps.Ideal
import Idealize.ShloMosaic.Lib.ReduceAll
import Idealize.ShloMosaic.Lib.ValueIdx

noncomputable section

namespace Cert.FinPre

open Idealize.ShloMosaic Cert.Pre_finite_inputs

/-- The scalar shape has one index. -/
instance : Subsingleton S_.Idx := ⟨fun a b => funext fun d => d.elim0⟩

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- If "every entry has `|x| < +∞`", computed as the `and` of all the comparisons, is 1, every entry is a real number. -/
theorem all_real {s : Shape} {axes : List (Fin s.rank)} (x : FVec Ideal s .f32)
    (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32)))
      (constantI S_ 1 1#1) h hu ValueIdx.ix0 = 1#1) :
    ∀ i, ∃ r : ℝ, x i = (r : EReal) := by
  intro i
  have hi := Host.reduce_andi_all _ _ h hu ValueIdx.ix0 e i
  have htop : Ideal.ofBits .f32 0x7F800000#32 = ⊤ := by simp [Ideal.ofBits, Ideal.ieee]
  change Ideal.cmp .olt (max (x i) (-(x i))) (Ideal.ofBits .f32 0x7F800000#32) = 1#1 at hi
  rw [htop] at hi
  refine real_of_abs_lt_top (x i) ?_
  by_contra hn
  simp [Ideal.cmp, hn] at hi

/-- Under the precondition every entry of each of the ten inputs is a real number. -/
theorem inputs_real (x0 : FVec Ideal S8192x1024 .f32) (x1 : FVec Ideal S1024x512 .f32) (x2 : FVec Ideal S512 .f32)
    (x3 : FVec Ideal S512x64 .f32) (x4 : FVec Ideal S64 .f32) (x5 : FVec Ideal S64x1024 .f32) (x6 : FVec Ideal S1024 .f32)
    (x7 : FVec Ideal S1088x50 .f32) (x8 : FVec Ideal S50 .f32) (x9 : FVec Ideal S16x64 .f32)
    (h : Cert.Pre_finite_inputs.fn (F := Ideal) x0 x1 x2 x3 x4 x5 x6 x7 x8 x9 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal))
      ∧ (∀ i, ∃ r : ℝ, x9 i = (r : EReal)) := by
  have h0 := congrFun h ValueIdx.ix0
  dsimp only [fn, fn_part1, fn_part2] at h0
  simp only [Idealize.ShloMosaic.andi, IntOp.andi_eq_one] at h0
  obtain ⟨⟨⟨⟨⟨⟨⟨⟨⟨e0, e1⟩, e2⟩, e3⟩, e4⟩, e5⟩, e6⟩, e7⟩, e8⟩, e9⟩ := h0
  exact ⟨all_real x0 _ _ _ e0, all_real x1 _ _ _ e1, all_real x2 _ _ _ e2, all_real x3 _ _ _ e3, all_real x4 _ _ _ e4,
    all_real x5 _ _ _ e5, all_real x6 _ _ _ e6, all_real x7 _ _ _ e7, all_real x8 _ _ _ e8, all_real x9 _ _ _ e9⟩

end Cert.FinPre

end
-- ==== Proof.Claims.lean ====
/-
  The five claims. The three frames are the generated ones (the reference's is its generated run with the results
  dropped); no operation was rewritten by the idealization, so that claim is trivial; and at the exact values the kernel
  and the reference compute the same nine arrays: each side's run is read as the array-wide functions of Results.lean
  of the ten arguments, the reference's spellings (a quotient by 1024, one product of the joined row, the sum of squared
  differences, the doubly shifted softmax) meeting the kernel's (a product with 2⁻¹⁰, two partial products, the expanded
  and clamped distances, the plain softmax) row by row. Only the soft assignment needs the inputs finite: there the
  expansion of a square and the attained maximum of a row of logits are facts about real numbers.
-/
import proofs.«152418_g16879221473979_cont_7to1_943_28_alg».proof.Defs
import proofs.«152418_g16879221473979_cont_7to1_943_28_alg».proof.Proof.Gen.Kernel.Frame
import proofs.«152418_g16879221473979_cont_7to1_943_28_alg».proof.Proof.Gen.KernelIdeal.Frame
import proofs.«152418_g16879221473979_cont_7to1_943_28_alg».proof.Proof.Gen.ReferenceIdeal.Run
import proofs.«152418_g16879221473979_cont_7to1_943_28_alg».proof.Proof.Gen.ReferenceIdeal.Read
import proofs.«152418_g16879221473979_cont_7to1_943_28_alg».proof.Proof.KRun
import proofs.«152418_g16879221473979_cont_7to1_943_28_alg».proof.Proof.RefFinal
import proofs.«152418_g16879221473979_cont_7to1_943_28_alg».proof.Proof.FinPre

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2.2.2.2.2.2)
    (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨_, _, _, _, _, _, _, _, _, Cert.KRun.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9⟩ := hagree c
  obtain ⟨h8, h9, h10, h52, h46, h51, h37, h42, hrest⟩ := h c
  obtain ⟨r0, r1, r2, r3, r4, r5, r6, r7, r8, r9⟩ := Cert.FinPre.inputs_real _ _ _ _ _ _ _ _ _ _ (hpre c)
  refine ⟨h8.trans ?_, h9.trans ?_, h10.trans ?_, h52.trans ?_, h46.trans ?_, h51.trans ?_, h37.trans ?_, h42.trans ?_,
    hrest.1.trans a9, hrest.2⟩
  · refine (Cert.ReferenceIdeal.Read.val_main_v8_eq (F := Ideal) _ _ _ _ _).trans ?_
    rw [Cert.RefFinal.ref_z, a0, a1, a2, a3, a4]
  · exact (Cert.ReferenceIdeal.Read.val_main_v9_eq (F := Ideal)).trans Cert.RefFinal.ref_zero9
  · exact (Cert.ReferenceIdeal.Read.val_main_v10_eq (F := Ideal)).trans Cert.RefFinal.ref_zero10
  · exact (Cert.ReferenceIdeal.Read.val_main_v52_eq (F := Ideal)).trans Cert.RefFinal.ref_zero52
  · refine (Cert.ReferenceIdeal.Read.val_main_v46_eq (F := Ideal) _ _ _ _ _ _ _).trans ?_
    rw [Cert.RefFinal.ref_xhat, a0, a1, a2, a3, a4, a5, a6]
  · refine (Cert.ReferenceIdeal.Read.val_main_v51_eq (F := Ideal) _ _ _ _ _ _ _).trans ?_
    rw [Cert.RefFinal.ref_rec, a0, a1, a2, a3, a4, a5, a6]
  · refine (Cert.ReferenceIdeal.Read.val_main_v37_eq (F := Ideal) m' c).trans ?_
    rw [a0, a1, a2, a3, a4, a9]
    exact Cert.RefFinal.ref_q _ _ _ _ _ _ r0 r1 r2 r3 r4 r9
  · refine (Cert.ReferenceIdeal.Read.val_main_v42_eq (F := Ideal) _ _ _ _ _ _ _).trans ?_
    rw [Cert.RefFinal.ref_surv, a0, a1, a2, a3, a4, a7, a8]

end Cert.Proof.Claims

end
-- ==== Proof.lean ====
/-
  The certificate of the fused autoencoder-with-clustering forward pass: the kernel (eight grid points, each a block of
  1024 rows through the encoder, the soft assignment to the centres, the survival head, the decoder and the mean squared
  reconstruction error) against its plain array reference, equal result by result on the extended reals for finite inputs.
  The mathematics is in Proof/Spec.lean (one row at a time) and Proof/Results.lean (the arrays); the two programs are read
  in Proof/KRun.lean and Proof/RefFinal.lean, and the claims are assembled in Proof/Claims.lean.
-/
import proofs.«152418_g16879221473979_cont_7to1_943_28_alg».proof.Defs
import proofs.«152418_g16879221473979_cont_7to1_943_28_alg».proof.Proof.Gen.Kernel
import proofs.«152418_g16879221473979_cont_7to1_943_28_alg».proof.Proof.Gen.Kernel.Skeleton
import proofs.«152418_g16879221473979_cont_7to1_943_28_alg».proof.Proof.Gen.Kernel.Launch
import proofs.«152418_g16879221473979_cont_7to1_943_28_alg».proof.Proof.Gen.Kernel.Points
import proofs.«152418_g16879221473979_cont_7to1_943_28_alg».proof.Proof.Gen.Kernel.Frame
import proofs.«152418_g16879221473979_cont_7to1_943_28_alg».proof.Proof.Gen.KernelIdeal
import proofs.«152418_g16879221473979_cont_7to1_943_28_alg».proof.Proof.Gen.KernelIdeal.Skeleton
import proofs.«152418_g16879221473979_cont_7to1_943_28_alg».proof.Proof.Gen.KernelIdeal.Launch
import proofs.«152418_g16879221473979_cont_7to1_943_28_alg».proof.Proof.Gen.KernelIdeal.Points
import proofs.«152418_g16879221473979_cont_7to1_943_28_alg».proof.Proof.Gen.KernelIdeal.Frame
import proofs.«152418_g16879221473979_cont_7to1_943_28_alg».proof.Proof.Gen.ReferenceIdeal
import proofs.«152418_g16879221473979_cont_7to1_943_28_alg».proof.Proof.Gen.Pre_finite_inputs
import proofs.«152418_g16879221473979_cont_7to1_943_28_alg».proof.Proof.Gen.ReferenceIdeal.Run
import proofs.«152418_g16879221473979_cont_7to1_943_28_alg».proof.Proof.Gen.ReferenceIdeal.Read
import proofs.«152418_g16879221473979_cont_7to1_943_28_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
